-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x64x1280 : Shape := ⟨4, ![8, 64, 64, 1280]⟩
abbrev S3840x1280 : Shape := ⟨2, ![3840, 1280]⟩
abbrev S3840 : Shape := ⟨1, ![3840]⟩
abbrev S8x1280 : Shape := ⟨2, ![8, 1280]⟩
abbrev S1280x8 : Shape := ⟨2, ![1280, 8]⟩
abbrev S1 : Shape := ⟨1, ![1]⟩
abbrev S_ : Shape := ⟨0, ![]⟩

class Facts : Prop where
  bcast_S_S8x64x64x1280 : S_.BroadcastsInDim S8x64x64x1280 (![] : Fin 0 → Fin S8x64x64x1280.rank)
  reducesTo_S8x64x64x1280_S_d0_1_2_3 : S8x64x64x1280.ReducesTo [0, 1, 2, 3] S_
  h_S_ : 0 < S_.numel
  bcast_S_S3840x1280 : S_.BroadcastsInDim S3840x1280 (![] : Fin 0 → Fin S3840x1280.rank)
  reducesTo_S3840x1280_S_d0_1 : S3840x1280.ReducesTo [0, 1] S_
  bcast_S_S3840 : S_.BroadcastsInDim S3840 (![] : Fin 0 → Fin S3840.rank)
  reducesTo_S3840_S_d0 : S3840.ReducesTo [0] S_
  bcast_S_S8x1280 : S_.BroadcastsInDim S8x1280 (![] : Fin 0 → Fin S8x1280.rank)
  reducesTo_S8x1280_S_d0_1 : S8x1280.ReducesTo [0, 1] S_
  bcast_S_S1280x8 : S_.BroadcastsInDim S1280x8 (![] : Fin 0 → Fin S1280x8.rank)
  reducesTo_S1280x8_S_d0_1 : S1280x8.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S1 .f32) (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  let main_v54 : FVec F S1 .f32 := Host.absf main_arg11
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg7 : FVec F S8x1280 .f32) (main_arg8 : FVec F S1280x8 .f32) (main_arg9 : FVec F S1 .f32) (main_arg10 : FVec F S1 .f32) (main_arg11 : FVec F S1 .f32) (main_v33 : IVec S_ 1) : IVec S_ 1 :=
  let main_v34 : FVec F S8x1280 .f32 := Host.absf main_arg7
  let main_cst_12 : FVec F S_ .f32 := constant S_ .f32 0x7F800000#32
  let main_v35 : FVec F S8x1280 .f32 := broadcastInDim S8x1280 ![] bcast_S_S8x1280 main_cst_12
  let main_v36 : IVec S8x1280 1 := cmpf .olt main_v34 main_v35
  let main_c_13 : IVec S_ 1 := constantI S_ 1 1#1
  let main_v37 : IVec S_ 1 := (fun x v => Host.reduce IntOp.andi x v reducesTo_S8x1280_S_d0_1 h_S_) main_v36 main_c_13
  let main_v38 : IVec S_ 1 := andi main_v33 main_v37
  let main_v39 : FVec F S1280x8 .f32 := Host.absf main_arg8
  let main_cst_14 : FVec F S_ .f32 := constant S_ .f32 0x7F800000#32
  let main_v40 : FVec F S1280x8 .f32 := broadcastInDim S1280x8 ![] bcast_S_S1280x8 main_cst_14
  let main_v41 : IVec S1280x8 1 := cmpf .olt main_v39 main_v40
  let main_c_15 : IVec S_ 1 := constantI S_ 1 1#1
  let main_v42 : IVec S_ 1 := (fun x v => Host.reduce IntOp.andi x v reducesTo_S1280x8_S_d0_1 h_S_) main_v41 main_c_15
  let main_v43 : IVec S_ 1 := andi main_v38 main_v42
  let main_v44 : FVec F S1 .f32 := Host.absf main_arg9
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_v49 : FVec F S1 .f32 := Host.absf main_arg10
  let main_cst_18 : FVec F S_ .f32 := constant S_ .f32 0x7F800000#32
  let main_v50 : FVec F S1 .f32 := broadcastInDim S1 ![] bcast_S_S1 main_cst_18
  fn_part3 (F := F) main_arg11 main_v48 main_v49 main_v50

def fn_part1 {F : FTy → Type} [FloatOps F] (main_arg4 : FVec F S1280x8 .f32) (main_arg5 : FVec F S8x1280 .f32) (main_arg6 : FVec F S1280x8 .f32) (main_arg7 : FVec F S8x1280 .f32) (main_arg8 : FVec F S1280x8 .f32) (main_arg9 : FVec F S1 .f32) (main_arg10 : FVec F S1 .f32) (main_arg11 : FVec F S1 .f32) (main_v13 : IVec S_ 1) (main_v16 : IVec S8x1280 1) : IVec S_ 1 :=
  let main_c_5 : IVec S_ 1 := constantI S_ 1 1#1
  let main_v17 : IVec S_ 1 := (fun x v => Host.reduce IntOp.andi x v reducesTo_S8x1280_S_d0_1 h_S_) main_v16 main_c_5
  let main_v18 : IVec S_ 1 := andi main_v13 main_v17
  let main_v19 : FVec F S1280x8 .f32 := Host.absf main_arg4
  let main_cst_6 : FVec F S_ .f32 := constant S_ .f32 0x7F800000#32
  let main_v20 : FVec F S1280x8 .f32 := broadcastInDim S1280x8 ![] bcast_S_S1280x8 main_cst_6
  let main_v21 : IVec S1280x8 1 := cmpf .olt main_v19 main_v20
  let main_c_7 : IVec S_ 1 := constantI S_ 1 1#1
  let main_v22 : IVec S_ 1 := (fun x v => Host.reduce IntOp.andi x v reducesTo_S1280x8_S_d0_1 h_S_) main_v21 main_c_7
  let main_v23 : IVec S_ 1 := andi main_v18 main_v22
  let main_v24 : FVec F S8x1280 .f32 := Host.absf main_arg5
  let main_cst_8 : FVec F S_ .f32 := constant S_ .f32 0x7F800000#32
  let main_v25 : FVec F S8x1280 .f32 := broadcastInDim S8x1280 ![] bcast_S_S8x1280 main_cst_8
  let main_v26 : IVec S8x1280 1 := cmpf .olt main_v24 main_v25
  let main_c_9 : IVec S_ 1 := constantI S_ 1 1#1
  let main_v27 : IVec S_ 1 := (fun x v => Host.reduce IntOp.andi x v reducesTo_S8x1280_S_d0_1 h_S_) main_v26 main_c_9
  let main_v28 : IVec S_ 1 := andi main_v23 main_v27
  let main_v29 : FVec F S1280x8 .f32 := Host.absf main_arg6
  let main_cst_10 : FVec F S_ .f32 := constant S_ .f32 0x7F800000#32
  let main_v30 : FVec F S1280x8 .f32 := broadcastInDim S1280x8 ![] bcast_S_S1280x8 main_cst_10
  let main_v31 : IVec S1280x8 1 := cmpf .olt main_v29 main_v30
  let main_c_11 : IVec S_ 1 := constantI S_ 1 1#1
  let main_v32 : IVec S_ 1 := (fun x v => Host.reduce IntOp.andi x v reducesTo_S1280x8_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S8x64x64x1280 .f32) (main_arg1 : FVec F S3840x1280 .f32) (main_arg2 : FVec F S3840 .f32) (main_arg3 : FVec F S8x1280 .f32) (main_arg4 : FVec F S1280x8 .f32) (main_arg5 : FVec F S8x1280 .f32) (main_arg6 : FVec F S1280x8 .f32) (main_arg7 : FVec F S8x1280 .f32) (main_arg8 : FVec F S1280x8 .f32) (main_arg9 : FVec F S1 .f32) (main_arg10 : FVec F S1 .f32) (main_arg11 : FVec F S1 .f32) : IVec S_ 1 :=
  let main_v0 : FVec F S8x64x64x1280 .f32 := Host.absf main_arg0
  let main_cst : FVec F S_ .f32 := constant S_ .f32 0x7F800000#32
  let main_v1 : FVec F S8x64x64x1280 .f32 := broadcastInDim S8x64x64x1280 ![] bcast_S_S8x64x64x1280 main_cst
  let main_v2 : IVec S8x64x64x1280 1 := cmpf .olt main_v0 main_v1
  let main_c : IVec S_ 1 := constantI S_ 1 1#1
  let main_v3 : IVec S_ 1 := (fun x v => Host.reduce IntOp.andi x v reducesTo_S8x64x64x1280_S_d0_1_2_3 h_S_) main_v2 main_c
  let main_v4 : FVec F S3840x1280 .f32 := Host.absf main_arg1
  let main_cst_0 : FVec F S_ .f32 := constant S_ .f32 0x7F800000#32
  let main_v5 : FVec F S3840x1280 .f32 := broadcastInDim S3840x1280 ![] bcast_S_S3840x1280 main_cst_0
  let main_v6 : IVec S3840x1280 1 := cmpf .olt main_v4 main_v5
  let main_c_1 : IVec S_ 1 := constantI S_ 1 1#1
  let main_v7 : IVec S_ 1 := (fun x v => Host.reduce IntOp.andi x v reducesTo_S3840x1280_S_d0_1 h_S_) main_v6 main_c_1
  let main_v8 : IVec S_ 1 := andi main_v3 main_v7
  let main_v9 : FVec F S3840 .f32 := Host.absf main_arg2
  let main_cst_2 : FVec F S_ .f32 := constant S_ .f32 0x7F800000#32
  let main_v10 : FVec F S3840 .f32 := broadcastInDim S3840 ![] bcast_S_S3840 main_cst_2
  let main_v11 : IVec S3840 1 := cmpf .olt main_v9 main_v10
  let main_c_3 : IVec S_ 1 := constantI S_ 1 1#1
  let main_v12 : IVec S_ 1 := (fun x v => Host.reduce IntOp.andi x v reducesTo_S3840_S_d0 h_S_) main_v11 main_c_3
  let main_v13 : IVec S_ 1 := andi main_v8 main_v12
  let main_v14 : FVec F S8x1280 .f32 := Host.absf main_arg3
  let main_cst_4 : FVec F S_ .f32 := constant S_ .f32 0x7F800000#32
  let main_v15 : FVec F S8x1280 .f32 := broadcastInDim S8x1280 ![] bcast_S_S8x1280 main_cst_4
  let main_v16 : IVec S8x1280 1 := cmpf .olt main_v14 main_v15
  fn_part1 (F := F) main_arg4 main_arg5 main_arg6 main_arg7 main_arg8 main_arg9 main_arg10 main_arg11 main_v13 main_v16
-- ==== Kernel.lean ====
abbrev S8x64x64x1280 : Shape := ⟨4, ![8, 64, 64, 1280]⟩
abbrev S3840x1280 : Shape := ⟨2, ![3840, 1280]⟩
abbrev S3840 : Shape := ⟨1, ![3840]⟩
abbrev S8x1280 : Shape := ⟨2, ![8, 1280]⟩
abbrev S1280x8 : Shape := ⟨2, ![1280, 8]⟩
abbrev S1 : Shape := ⟨1, ![1]⟩
abbrev S32768x1280 : Shape := ⟨2, ![32768, 1280]⟩
abbrev S1x3840 : Shape := ⟨2, ![1, 3840]⟩
abbrev S24x1280 : Shape := ⟨2, ![24, 1280]⟩
abbrev S_ : Shape := ⟨0, ![]⟩
abbrev S1280x24 : Shape := ⟨2, ![1280, 24]⟩
abbrev S3840x24 : Shape := ⟨2, ![3840, 24]⟩
abbrev S32768x3840 : Shape := ⟨2, ![32768, 3840]⟩
abbrev S256x1280 : Shape := ⟨2, ![256, 1280]⟩
abbrev S256x3840 : Shape := ⟨2, ![256, 3840]⟩
abbrev S256x24 : Shape := ⟨2, ![256, 24]⟩
abbrev S8x64x64x3840 : Shape := ⟨4, ![8, 64, 64, 3840]⟩

abbrev nBuf : Space → Nat
  | .hbm => 35
  | .vmem => 8
  | .smem => 0
  | _ => 0

abbrev bufTy : (tb : Table) → Fin (tcTables nBuf tb) → BufTy
  | .hbm, ⟨0, _⟩ => ⟨S8x64x64x1280, .f32⟩
  | .hbm, ⟨1, _⟩ => ⟨S3840x1280, .f32⟩
  | .hbm, ⟨2, _⟩ => ⟨S3840, .f32⟩
  | .hbm, ⟨3, _⟩ => ⟨S8x1280, .f32⟩
  | .hbm, ⟨4, _⟩ => ⟨S1280x8, .f32⟩
  | .hbm, ⟨5, _⟩ => ⟨S8x1280, .f32⟩
  | .hbm, ⟨6, _⟩ => ⟨S1280x8, .f32⟩
  | .hbm, ⟨7, _⟩ => ⟨S8x1280, .f32⟩
  | .hbm, ⟨8, _⟩ => ⟨S1280x8, .f32⟩
  | .hbm, ⟨9, _⟩ => ⟨S1, .f32⟩
  | .hbm, ⟨10, _⟩ => ⟨S1, .f32⟩
  | .hbm, ⟨11, _⟩ => ⟨S1, .f32⟩
  | .hbm, ⟨12, _⟩ => ⟨S32768x1280, .f32⟩
  | .hbm, ⟨13, _⟩ => ⟨S3840x1280, .bf16⟩
  | .hbm, ⟨14, _⟩ => ⟨S1x3840, .f32⟩
  | .hbm, ⟨15, _⟩ => ⟨S24x1280, .f32⟩
  | .hbm, ⟨16, _⟩ => ⟨S_, .f32⟩
  | .hbm, ⟨17, _⟩ => ⟨S1280x8, .f32⟩
  | .hbm, ⟨18, _⟩ => ⟨S1280x8, .f32⟩
  | .hbm, ⟨19, _⟩ => ⟨S_, .f32⟩
  | .hbm, ⟨20, _⟩ => ⟨S1280x8, .f32⟩
  | .hbm, ⟨21, _⟩ => ⟨S1280x8, .f32⟩
  | .hbm, ⟨22, _⟩ => ⟨S_, .f32⟩
  | .hbm, ⟨23, _⟩ => ⟨S1280x8, .f32⟩
  | .hbm, ⟨24, _⟩ => ⟨S1280x8, .f32⟩
  | .hbm, ⟨25, _⟩ => ⟨S_, .f32⟩
  | .hbm, ⟨26, _⟩ => ⟨S1280x8, .f32⟩
  | .hbm, ⟨27, _⟩ => ⟨S1280x24, .f32⟩
  | .hbm, ⟨28, _⟩ => ⟨S1280x24, .f32⟩
  | .hbm, ⟨29, _⟩ => ⟨S1280x24, .f32⟩
  | .hbm, ⟨30, _⟩ => ⟨S3840x24, .f32⟩
  | .hbm, ⟨31, _⟩ => ⟨S24x1280, .bf16⟩
  | .hbm, ⟨32, _⟩ => ⟨S3840x24, .bf16⟩
  | .hbm, ⟨33, _⟩ => ⟨S32768x3840, .f32⟩
  | .hbm, ⟨34, _⟩ => ⟨S8x64x64x3840, .f32⟩
  | .local _ .vmem, ⟨0, _⟩ => ⟨S256x1280, .f32⟩
  | .local _ .vmem, ⟨1, _⟩ => ⟨S256x1280, .f32⟩
  | .local _ .vmem, ⟨2, _⟩ => ⟨S3840x1280, .bf16⟩
  | .local _ .vmem, ⟨3, _⟩ => ⟨S1x3840, .f32⟩
  | .local _ .vmem, ⟨4, _⟩ => ⟨S24x1280, .bf16⟩
  | .local _ .vmem, ⟨5, _⟩ => ⟨S3840x24, .bf16⟩
  | .local _ .vmem, ⟨6, _⟩ => ⟨S256x3840, .f32⟩
  | .local _ .vmem, ⟨7, _⟩ => ⟨S256x3840, .f32⟩
  | _, _ => ⟨S8x64x64x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3840x1280 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3840 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S24x1280 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3840x24 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x3840 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S8x64x64x1280_S32768x1280 : S8x64x64x1280.ShapeCasts S32768x1280
  bitsLt_bf16_f32 : FTy.bits .bf16 < FTy.bits .f32
  shapeCasts_S3840_S1x3840 : S3840.ShapeCasts S1x3840
  concatenates_S8x1280_S8x1280_S8x1280_S24x1280_d0 : Shape.Concatenates [S8x1280, S8x1280, S8x1280] S24x1280 0
  shapeCasts_S1_S_ : S1.ShapeCasts S_
  bcast_S_S1280x8 : S_.BroadcastsInDim S1280x8 (![] : Fin 0 → Fin S1280x8.rank)
  concatenates_S1280x8_S1280x8_S1280x8_S1280x24_d1 : Shape.Concatenates [S1280x8, S1280x8, S1280x8] S1280x24 1
  concatenates_S1280x24_S1280x24_S1280x24_S3840x24_d0 : Shape.Concatenates [S1280x24, S1280x24, S1280x24] S3840x24 0
  inb_S256x1280_S256x1280_0_0 : ∀ a, (![0, 0] : Fin 2 → Nat) a + S256x1280.size a ≤ S256x1280.size a
  h_S256x1280 : 0 < S256x1280.numel
  shapeCasts_S256x1280_S256x1280 : S256x1280.ShapeCasts S256x1280
  inb_S3840x1280_S3840x1280_0_0 : ∀ a, (![0, 0] : Fin 2 → Nat) a + S3840x1280.size a ≤ S3840x1280.size a
  h_S3840x1280 : 0 < S3840x1280.numel
  shapeCasts_S3840x1280_S3840x1280 : S3840x1280.ShapeCasts S3840x1280
  inb_S1x3840_S1x3840_0_0 : ∀ a, (![0, 0] : Fin 2 → Nat) a + S1x3840.size a ≤ S1x3840.size a
  h_S1x3840 : 0 < S1x3840.numel
  shapeCasts_S1x3840_S1x3840 : S1x3840.ShapeCasts S1x3840
  broadcasts_S1x3840_S256x3840 : S1x3840.Broadcasts S256x3840
  inb_S24x1280_S24x1280_0_0 : ∀ a, (![0, 0] : Fin 2 → Nat) a + S24x1280.size a ≤ S24x1280.size a
  h_S24x1280 : 0 < S24x1280.numel
  shapeCasts_S24x1280_S24x1280 : S24x1280.ShapeCasts S24x1280
  inb_S3840x24_S3840x24_0_0 : ∀ a, (![0, 0] : Fin 2 → Nat) a + S3840x24.size a ≤ S3840x24.size a
  h_S3840x24 : 0 < S3840x24.numel
  shapeCasts_S3840x24_S3840x24 : S3840x24.ShapeCasts S3840x24
  inb_S256x3840_S256x3840_0_0 : ∀ a, (![0, 0] : Fin 2 → Nat) a + S256x3840.size a ≤ S256x3840.size a
  h_S256x3840 : 0 < S256x3840.numel
  shapeCasts_S32768x3840_S8x64x64x3840 : S32768x3840.ShapeCasts S8x64x64x3840
  dot_S256x1280_S3840x1280_S256x3840_1_1_0_0_n_n_wf : DotDims.WF S256x1280 S3840x1280 S256x3840 [1] [1] [0] [0] [] []
  dot_S256x1280_S24x1280_S256x24_1_1_0_0_n_n_wf : DotDims.WF S256x1280 S24x1280 S256x24 [1] [1] [0] [0] [] []
  dot_S256x24_S3840x24_S256x3840_1_1_0_0_n_n_wf : DotDims.WF S256x24 S3840x24 S256x3840 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1280.size a ≤ S32768x1280.size a
  hwx0_0 : ∀ i : grid0.Coords, EltTy.bits .f32 = 32 ∨ (Rect.block (s := S32768x1280) S256x1280.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3840x1280.size a ≤ S3840x1280.size a
  hwx0_1 : ∀ i : grid0.Coords, EltTy.bits .bf16 = 32 ∨ (Rect.block (s := S3840x1280) S3840x1280.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3840.size a ≤ S1x3840.size a
  hwx0_2 : ∀ i : grid0.Coords, EltTy.bits .f32 = 32 ∨ (Rect.block (s := S1x3840) S1x3840.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S24x1280.size a ≤ S24x1280.size a
  hwx0_3 : ∀ i : grid0.Coords, EltTy.bits .bf16 = 32 ∨ (Rect.block (s := S24x1280) S24x1280.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3840x24.size a ≤ S3840x24.size a
  hwx0_4 : ∀ i : grid0.Coords, EltTy.bits .bf16 = 32 ∨ (Rect.block (s := S3840x24) S3840x24.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x3840.size a ≤ S32768x3840.size a
  hwx0_5 : ∀ i : grid0.Coords, EltTy.bits .f32 = 32 ∨ (Rect.block (s := S32768x3840) S256x3840.size (cc0_transform_5 i) (hinb0_5 i)).WholeWords (EltTy.packing .f32)

variable [Facts₀]

def dot_S256x1280_S3840x1280_S256x3840_1_1_0_0_n_n : DotDims S256x1280 S3840x1280 S256x3840 where
  lhsContracting := [1]
  rhsContracting := [1]
  lhsNonContracting := [0]
  rhsNonContracting := [0]
  lhsBatch := []
  rhsBatch := []
  wf := dot_S256x1280_S3840x1280_S256x3840_1_1_0_0_n_n_wf
def dot_S256x1280_S24x1280_S256x24_1_1_0_0_n_n : DotDims S256x1280 S24x1280 S256x24 where
  lhsContracting := [1]
  rhsContracting := [1]
  lhsNonContracting := [0]
  rhsNonContracting := [0]
  lhsBatch := []
  rhsBatch := []
  wf := dot_S256x1280_S24x1280_S256x24_1_1_0_0_n_n_wf
def dot_S256x24_S3840x24_S256x3840_1_1_0_0_n_n : DotDims S256x24 S3840x24 S256x3840 where
  lhsContracting := [1]
  rhsContracting := [1]
  lhsNonContracting := [0]
  rhsNonContracting := [0]
  lhsBatch := []
  rhsBatch := []
  wf := dot_S256x24_S3840x24_S256x3840_1_1_0_0_n_n_wf

abbrev win0_0 : Pipeline.Window sig grid0 :=
  Pipeline.Window.ofSpec (Memref.whole main_v0) S256x1280.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S3840x1280.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x3840.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S24x1280.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S3840x24.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S256x3840.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x64x64x1280 : Shape := ⟨4, ![8, 64, 64, 1280]⟩
abbrev S3840x1280 : Shape := ⟨2, ![3840, 1280]⟩
abbrev S3840 : Shape := ⟨1, ![3840]⟩
abbrev S8x1280 : Shape := ⟨2, ![8, 1280]⟩
abbrev S1280x8 : Shape := ⟨2, ![1280, 8]⟩
abbrev S1 : Shape := ⟨1, ![1]⟩
abbrev S8x64x64x3840 : Shape := ⟨4, ![8, 64, 64, 3840]⟩
abbrev S1x1x1x3840 : Shape := ⟨4, ![1, 1, 1, 3840]⟩
abbrev S8x64x64x8 : Shape := ⟨4, ![8, 64, 64, 8]⟩
abbrev S1x1x1x1 : Shape := ⟨4, ![1, 1, 1, 1]⟩

abbrev nBuf : Space → Nat
  | .hbm => 33
  | .vmem => 0
  | .smem => 0
  | _ => 0

abbrev bufTy : (tb : Table) → Fin (tcTables nBuf tb) → BufTy
  | .hbm, ⟨0, _⟩ => ⟨S8x64x64x1280, .f32⟩
  | .hbm, ⟨1, _⟩ => ⟨S3840x1280, .f32⟩
  | .hbm, ⟨2, _⟩ => ⟨S3840, .f32⟩
  | .hbm, ⟨3, _⟩ => ⟨S8x1280, .f32⟩
  | .hbm, ⟨4, _⟩ => ⟨S1280x8, .f32⟩
  | .hbm, ⟨5, _⟩ => ⟨S8x1280, .f32⟩
  | .hbm, ⟨6, _⟩ => ⟨S1280x8, .f32⟩
  | .hbm, ⟨7, _⟩ => ⟨S8x1280, .f32⟩
  | .hbm, ⟨8, _⟩ => ⟨S1280x8, .f32⟩
  | .hbm, ⟨9, _⟩ => ⟨S1, .f32⟩
  | .hbm, ⟨10, _⟩ => ⟨S1, .f32⟩
  | .hbm, ⟨11, _⟩ => ⟨S1, .f32⟩
  | .hbm, ⟨12, _⟩ => ⟨S8x64x64x3840, .f32⟩
  | .hbm, ⟨13, _⟩ => ⟨S1x1x1x3840, .f32⟩
  | .hbm, ⟨14, _⟩ => ⟨S8x64x64x3840, .f32⟩
  | .hbm, ⟨15, _⟩ => ⟨S8x64x64x3840, .f32⟩
  | .hbm, ⟨16, _⟩ => ⟨S8x64x64x8, .f32⟩
  | .hbm, ⟨17, _⟩ => ⟨S8x64x64x1280, .f32⟩
  | .hbm, ⟨18, _⟩ => ⟨S1x1x1x1, .f32⟩
  | .hbm, ⟨19, _⟩ => ⟨S8x64x64x1280, .f32⟩
  | .hbm, ⟨20, _⟩ => ⟨S8x64x64x1280, .f32⟩
  | .hbm, ⟨21, _⟩ => ⟨S8x64x64x8, .f32⟩
  | .hbm, ⟨22, _⟩ => ⟨S8x64x64x1280, .f32⟩
  | .hbm, ⟨23, _⟩ => ⟨S1x1x1x1, .f32⟩
  | .hbm, ⟨24, _⟩ => ⟨S8x64x64x1280, .f32⟩
  | .hbm, ⟨25, _⟩ => ⟨S8x64x64x1280, .f32⟩
  | .hbm, ⟨26, _⟩ => ⟨S8x64x64x8, .f32⟩
  | .hbm, ⟨27, _⟩ => ⟨S8x64x64x1280, .f32⟩
  | .hbm, ⟨28, _⟩ => ⟨S1x1x1x1, .f32⟩
  | .hbm, ⟨29, _⟩ => ⟨S8x64x64x1280, .f32⟩
  | .hbm, ⟨30, _⟩ => ⟨S8x64x64x1280, .f32⟩
  | .hbm, ⟨31, _⟩ => ⟨S8x64x64x3840, .f32⟩
  | .hbm, ⟨32, _⟩ => ⟨S8x64x64x3840, .f32⟩
  | _, _ => ⟨S8x64x64x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩

abbrev nD : Nat := 1
abbrev τ : Topo := Topo.v7x

variable {F : FTy → Type} [FloatOps F]

class Facts₀ : Prop where
  bcast_S3840_S1x1x1x3840_3 : S3840.BroadcastsInDim S1x1x1x3840 (![3] : Fin 1 → Fin S1x1x1x3840.rank)
  bcast_S1x1x1x3840_S8x64x64x3840_0_1_2_3 : S1x1x1x3840.BroadcastsInDim S8x64x64x3840 (![0, 1, 2, 3] : Fin 4 → Fin S8x64x64x3840.rank)
  bcast_S1_S1x1x1x1_3 : S1.BroadcastsInDim S1x1x1x1 (![3] : Fin 1 → Fin S1x1x1x1.rank)
  bcast_S1x1x1x1_S8x64x64x1280_0_1_2_3 : S1x1x1x1.BroadcastsInDim S8x64x64x1280 (![0, 1, 2, 3] : Fin 4 → Fin S8x64x64x1280.rank)
  concatenates_S8x64x64x1280_S8x64x64x1280_S8x64x64x1280_S8x64x64x3840_d3 : Shape.Concatenates [S8x64x64x1280, S8x64x64x1280, S8x64x64x1280] S8x64x64x3840 3
  dot_S8x64x64x1280_S3840x1280_S8x64x64x3840_3_1_012_0_n_n_wf : DotDims.WF S8x64x64x1280 S3840x1280 S8x64x64x3840 [3] [1] [0, 1, 2] [0] [] []
  dot_S8x64x64x1280_S8x1280_S8x64x64x8_3_1_012_0_n_n_wf : DotDims.WF S8x64x64x1280 S8x1280 S8x64x64x8 [3] [1] [0, 1, 2] [0] [] []
  dot_S8x64x64x8_S1280x8_S8x64x64x1280_3_1_012_0_n_n_wf : DotDims.WF S8x64x64x8 S1280x8 S8x64x64x1280 [3] [1] [0, 1, 2] [0] [] []

variable [Facts₀]

def dot_S8x64x64x1280_S3840x1280_S8x64x64x3840_3_1_012_0_n_n : DotDims S8x64x64x1280 S3840x1280 S8x64x64x3840 where
  lhsContracting := [3]
  rhsContracting := [1]
  lhsNonContracting := [0, 1, 2]
  rhsNonContracting := [0]
  lhsBatch := []
  rhsBatch := []
  wf := dot_S8x64x64x1280_S3840x1280_S8x64x64x3840_3_1_012_0_n_n_wf
def dot_S8x64x64x1280_S8x1280_S8x64x64x8_3_1_012_0_n_n : DotDims S8x64x64x1280 S8x1280 S8x64x64x8 where
  lhsContracting := [3]
  rhsContracting := [1]
  lhsNonContracting := [0, 1, 2]
  rhsNonContracting := [0]
  lhsBatch := []
  rhsBatch := []
  wf := dot_S8x64x64x1280_S8x1280_S8x64x64x8_3_1_012_0_n_n_wf
def dot_S8x64x64x8_S1280x8_S8x64x64x1280_3_1_012_0_n_n : DotDims S8x64x64x8 S1280x8 S8x64x64x1280 where
  lhsContracting := [3]
  rhsContracting := [1]
  lhsNonContracting := [0, 1, 2]
  rhsNonContracting := [0]
  lhsBatch := []
  rhsBatch := []
  wf := dot_S8x64x64x8_S1280x8_S8x64x64x1280_3_1_012_0_n_n_wf

class Facts : Prop extends Facts₀ where

variable [Facts]
-- ==== Proof.KernelFrame.lean ====
/-
  The frame of the program: it runs to the end, nothing faults, and the twelve argument arrays end as they began.

  The program is twenty-one host lines (reshapes, three-way concatenations, scalings, changes of float format) that
  build five matrices, one gridded kernel launch over 128 row blocks of 256 tokens, and one closing reshape. At every
  grid point the kernel body loads its five input blocks whole, computes one 256 × 3840 block, and stores it whole;
  the block it stores is a function of the five loaded blocks only (it also loads the output block, and discards what
  it read). So each input's staging buffer holds the block the launch fetched, the output's staging buffer is
  overwritten whole at every point, and no argument array is ever a window of the launch: the host lines before it
  write fresh buffers only, and so does the reshape after it.
-/
import proofs.«111903_j32925219291175_2_alg».proof.Proof.Gen.Kernel.Launch
import proofs.«111903_j32925219291175_2_alg».proof.Proof.Gen.Kernel.Skeleton
import proofs.«111903_j32925219291175_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the launch -/

/-- The core's buffer contents when the launch is entered: the launch contents after the twenty-one host lines. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- No host line allocates. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is: the host lines, the launch, the closing reshape. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The closing reshape touches the launch's result array and a buffer that bypasses the launch, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- allocates nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- and writes no array of the launch (it writes its own result buffer). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w; fin_cases w <;> simp only [StableHlo.reshape_writes, Finset.mem_singleton] <;> exact StableHlo.devRef_ne_of_ne (by decide)

/-! ## No host line before the launch writes an argument array -/

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-! ## The windows' blocks -/

/-- Window `w`'s block at grid point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (where it is not
    fetched the block index has not moved), for any proof data whose array is the entry contents and whose body leaves
    the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## From the launch's post to the frame -/

/-- A buffer that is neither an array of the launch nor the closing reshape's result holds after the program what it
    held when the launch was entered. -/
theorem tail_keeps (dats : (p : Fin 1) → (c : Dev nD) → Dat τ (Elt F) Unit ℕ (UR sig nD τ) ℕ (cfgs p) c) (c : Dev nD)
    (b : Ref sig .tc) (hb1 : b ≠ main_v21) (hb2 : ∀ w, Pipeline.arrRef spec0 w ≠ b) :
    Pipeline.afterTail₀ cfgs dats 0 (V0 m) [hostOps1] c b = V m c b := by
  unfold Pipeline.afterTail₀
  rw [StableHlo.after_of_forall_not_mem (b := Proc.devRef .tc b) _ _ (by
    simp only [hostOps1, List.flatten_cons, List.flatten_nil, List.append_nil, List.mem_singleton]
    rintro op rfl
    rw [StableHlo.reshape_writes, Finset.mem_singleton]
    exact StableHlo.devRef_ne_of_ne hb1)]
  exact Pipeline.withArrays_of_ne _ c _ _ b hb2

/-- The frame from a run of the launch: no argument array is a window's array, so each ends at its entry contents,
    which are its launch contents. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨((h c).2 main_arg0 (Pipeline.mem_restRefs_of main_arg0 (by decide) (by decide))).trans ((tail_keeps m dats c main_arg0 (by decide) (by decide)).trans (V_main_arg0 m c)),
      ((h c).2 main_arg1 (Pipeline.mem_restRefs_of main_arg1 (by decide) (by decide))).trans ((tail_keeps m dats c main_arg1 (by decide) (by decide)).trans (V_main_arg1 m c)),
      ((h c).2 main_arg2 (Pipeline.mem_restRefs_of main_arg2 (by decide) (by decide))).trans ((tail_keeps m dats c main_arg2 (by decide) (by decide)).trans (V_main_arg2 m c)),
      ((h c).2 main_arg3 (Pipeline.mem_restRefs_of main_arg3 (by decide) (by decide))).trans ((tail_keeps m dats c main_arg3 (by decide) (by decide)).trans (V_main_arg3 m c)),
      ((h c).2 main_arg4 (Pipeline.mem_restRefs_of main_arg4 (by decide) (by decide))).trans ((tail_keeps m dats c main_arg4 (by decide) (by decide)).trans (V_main_arg4 m c)),
      ((h c).2 main_arg5 (Pipeline.mem_restRefs_of main_arg5 (by decide) (by decide))).trans ((tail_keeps m dats c main_arg5 (by decide) (by decide)).trans (V_main_arg5 m c)),
      ((h c).2 main_arg6 (Pipeline.mem_restRefs_of main_arg6 (by decide) (by decide))).trans ((tail_keeps m dats c main_arg6 (by decide) (by decide)).trans (V_main_arg6 m c)),
      ((h c).2 main_arg7 (Pipeline.mem_restRefs_of main_arg7 (by decide) (by decide))).trans ((tail_keeps m dats c main_arg7 (by decide) (by decide)).trans (V_main_arg7 m c)),
      ((h c).2 main_arg8 (Pipeline.mem_restRefs_of main_arg8 (by decide) (by decide))).trans ((tail_keeps m dats c main_arg8 (by decide) (by decide)).trans (V_main_arg8 m c)),
      ((h c).2 main_arg9 (Pipeline.mem_restRefs_of main_arg9 (by decide) (by decide))).trans ((tail_keeps m dats c main_arg9 (by decide) (by decide)).trans (V_main_arg9 m c)),
      ((h c).2 main_arg10 (Pipeline.mem_restRefs_of main_arg10 (by decide) (by decide))).trans ((tail_keeps m dats c main_arg10 (by decide) (by decide)).trans (V_main_arg10 m c)),
      ((h c).2 main_arg11 (Pipeline.mem_restRefs_of main_arg11 (by decide) (by decide))).trans ((tail_keeps m dats c main_arg11 (by decide) (by decide)).trans (V_main_arg11 m c))⟩) h

/-! ## What the body leaves in the output window's buffer -/

abbrev rX : Rect S256x1280 := Rect.unit (s := S256x1280) ![0, 0] S256x1280.size inb_S256x1280_S256x1280_0_0
abbrev rW : Rect S3840x1280 := Rect.unit (s := S3840x1280) ![0, 0] S3840x1280.size inb_S3840x1280_S3840x1280_0_0
abbrev rBias : Rect S1x3840 := Rect.unit (s := S1x3840) ![0, 0] S1x3840.size inb_S1x3840_S1x3840_0_0
abbrev rA : Rect S24x1280 := Rect.unit (s := S24x1280) ![0, 0] S24x1280.size inb_S24x1280_S24x1280_0_0
abbrev rB : Rect S3840x24 := Rect.unit (s := S3840x24) ![0, 0] S3840x24.size inb_S3840x24_S3840x24_0_0
abbrev rO : Rect S256x3840 := Rect.unit (s := S256x3840) ![0, 0] S256x3840.size inb_S256x3840_S256x3840_0_0

/-- The output block after the body, from the five input blocks: its one whole store. -/
def out0_5 (x0 : Vec F S256x1280 .f32) (x1 : Vec F S3840x1280 .bf16) (x2 : Vec F S1x3840 .f32) (x3 : Vec F S24x1280 .bf16) (x4 : Vec F S3840x24 .bf16) : Vec F S256x3840 .f32 :=
  View.canon [⟨rO, k0_pay1 (View.ld x0 rX) (View.ld x1 rW) (View.ld x2 rBias) (View.ld x3 rA) (View.ld x4 rB)⟩]

/-- The one store covers the block. -/
theorem cover0_5 (p0 : Vec F S256x3840 .f32) (y : S256x3840.Idx) :
    ∃ pc ∈ ([⟨rO, p0⟩] : List (View.Piece (Elt F) S256x3840 .f32)), y ∈ pc.1.set :=
  View.cover_of_tiled [⟨rO, p0⟩] S256x3840.size (by rfl) y

/-! ## The body's triple -/

set_option maxHeartbeats 4000000 in
/-- The body on whole staging buffers, the inputs' at contents `xW` and the output's at anything, runs to the
    continuation holding the inputs' as they were and the output's at `out0_5` of the inputs'. -/
theorem sound_kernel (c : Dev nD) (E : Set ℕ) (i : grid0.Coords) (arg1 : Memref sig .tc .vmem S256x1280 .f32) (harg1 : arg1.IsWhole) (arg2 : Memref sig .tc .vmem S3840x1280 .bf16) (harg2 : arg2.IsWhole) (arg3 : Memref sig .tc .vmem S1x3840 .f32) (harg3 : arg3.IsWhole) (arg4 : Memref sig .tc .vmem S24x1280 .bf16) (harg4 : arg4.IsWhole) (arg5 : Memref sig .tc .vmem S3840x24 .bf16) (harg5 : arg5.IsWhole) (arg6 : Memref sig .tc .vmem S256x3840 .f32) (harg6 : arg6.IsWhole)
    (x0 : Vec F S256x1280 .f32) (x1 : Vec F S3840x1280 .bf16) (x2 : Vec F S1x3840 .f32) (x3 : Vec F S24x1280 .bf16) (x4 : Vec F S3840x24 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2 x3 x4)) -∗ K ⟨⟩))
      ⊢ wp frame (wpE (defs₀ (F := F)) Variants.none c none) E (cc0__lora_qkv_kernel i arg1 harg1 arg2 harg2 arg3 harg3 arg4 harg4 arg5 harg5 arg6 harg6) K := by
  simp only [cc0__lora_qkv_kernel_eq_skeleton]; unfold cc0__lora_qkv_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The launch's proof data -/

/-- On core `c`: the arrays as the launch finds them; after the body at point `t` each input's buffer at its block
    and the output's at `out0_5` of the input blocks; nothing else held, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out0_5 (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = out0_5 (iblk m c 0 t) (iblk m c 1 t) (iblk m c 2 t) (iblk m c 3 t) (iblk m c 4 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so the body's triple applies; the invariant and the
    core's duties pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates without a fault, every array of the launch ends at what
    the proof data say, and every other unscoped buffer as the closing reshape leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- THE FRAME, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (run_main m ρ)

end Cert.Kernel.Hand

end
-- ==== Proof.KernelIdealFrame.lean ====
/-
  The frame of the program: it runs to the end, nothing faults, and the twelve argument arrays end as they began.

  The program is twenty-one host lines (reshapes, three-way concatenations, scalings, changes of float format) that
  build five matrices, one gridded kernel launch over 128 row blocks of 256 tokens, and one closing reshape. At every
  grid point the kernel body loads its five input blocks whole, computes one 256 × 3840 block, and stores it whole;
  the block it stores is a function of the five loaded blocks only (it also loads the output block, and discards what
  it read). So each input's staging buffer holds the block the launch fetched, the output's staging buffer is
  overwritten whole at every point, and no argument array is ever a window of the launch: the host lines before it
  write fresh buffers only, and so does the reshape after it.
-/
import proofs.«111903_j32925219291175_2_alg».proof.Proof.Gen.KernelIdeal.Launch
import proofs.«111903_j32925219291175_2_alg».proof.Proof.Gen.KernelIdeal.Skeleton
import proofs.«111903_j32925219291175_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the launch -/

/-- The core's buffer contents when the launch is entered: the launch contents after the twenty-one host lines. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- No host line allocates. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is: the host lines, the launch, the closing reshape. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The closing reshape touches the launch's result array and a buffer that bypasses the launch, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- allocates nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- and writes no array of the launch (it writes its own result buffer). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w; fin_cases w <;> simp only [StableHlo.reshape_writes, Finset.mem_singleton] <;> exact StableHlo.devRef_ne_of_ne (by decide)

/-! ## No host line before the launch writes an argument array -/

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-! ## The windows' blocks -/

/-- Window `w`'s block at grid point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (where it is not
    fetched the block index has not moved), for any proof data whose array is the entry contents and whose body leaves
    the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## From the launch's post to the frame -/

/-- A buffer that is neither an array of the launch nor the closing reshape's result holds after the program what it
    held when the launch was entered. -/
theorem tail_keeps (dats : (p : Fin 1) → (c : Dev nD) → Dat τ (Elt F) Unit ℕ (UR sig nD τ) ℕ (cfgs p) c) (c : Dev nD)
    (b : Ref sig .tc) (hb1 : b ≠ main_v21) (hb2 : ∀ w, Pipeline.arrRef spec0 w ≠ b) :
    Pipeline.afterTail₀ cfgs dats 0 (V0 m) [hostOps1] c b = V m c b := by
  unfold Pipeline.afterTail₀
  rw [StableHlo.after_of_forall_not_mem (b := Proc.devRef .tc b) _ _ (by
    simp only [hostOps1, List.flatten_cons, List.flatten_nil, List.append_nil, List.mem_singleton]
    rintro op rfl
    rw [StableHlo.reshape_writes, Finset.mem_singleton]
    exact StableHlo.devRef_ne_of_ne hb1)]
  exact Pipeline.withArrays_of_ne _ c _ _ b hb2

/-- The frame from a run of the launch: no argument array is a window's array, so each ends at its entry contents,
    which are its launch contents. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨((h c).2 main_arg0 (Pipeline.mem_restRefs_of main_arg0 (by decide) (by decide))).trans ((tail_keeps m dats c main_arg0 (by decide) (by decide)).trans (V_main_arg0 m c)),
      ((h c).2 main_arg1 (Pipeline.mem_restRefs_of main_arg1 (by decide) (by decide))).trans ((tail_keeps m dats c main_arg1 (by decide) (by decide)).trans (V_main_arg1 m c)),
      ((h c).2 main_arg2 (Pipeline.mem_restRefs_of main_arg2 (by decide) (by decide))).trans ((tail_keeps m dats c main_arg2 (by decide) (by decide)).trans (V_main_arg2 m c)),
      ((h c).2 main_arg3 (Pipeline.mem_restRefs_of main_arg3 (by decide) (by decide))).trans ((tail_keeps m dats c main_arg3 (by decide) (by decide)).trans (V_main_arg3 m c)),
      ((h c).2 main_arg4 (Pipeline.mem_restRefs_of main_arg4 (by decide) (by decide))).trans ((tail_keeps m dats c main_arg4 (by decide) (by decide)).trans (V_main_arg4 m c)),
      ((h c).2 main_arg5 (Pipeline.mem_restRefs_of main_arg5 (by decide) (by decide))).trans ((tail_keeps m dats c main_arg5 (by decide) (by decide)).trans (V_main_arg5 m c)),
      ((h c).2 main_arg6 (Pipeline.mem_restRefs_of main_arg6 (by decide) (by decide))).trans ((tail_keeps m dats c main_arg6 (by decide) (by decide)).trans (V_main_arg6 m c)),
      ((h c).2 main_arg7 (Pipeline.mem_restRefs_of main_arg7 (by decide) (by decide))).trans ((tail_keeps m dats c main_arg7 (by decide) (by decide)).trans (V_main_arg7 m c)),
      ((h c).2 main_arg8 (Pipeline.mem_restRefs_of main_arg8 (by decide) (by decide))).trans ((tail_keeps m dats c main_arg8 (by decide) (by decide)).trans (V_main_arg8 m c)),
      ((h c).2 main_arg9 (Pipeline.mem_restRefs_of main_arg9 (by decide) (by decide))).trans ((tail_keeps m dats c main_arg9 (by decide) (by decide)).trans (V_main_arg9 m c)),
      ((h c).2 main_arg10 (Pipeline.mem_restRefs_of main_arg10 (by decide) (by decide))).trans ((tail_keeps m dats c main_arg10 (by decide) (by decide)).trans (V_main_arg10 m c)),
      ((h c).2 main_arg11 (Pipeline.mem_restRefs_of main_arg11 (by decide) (by decide))).trans ((tail_keeps m dats c main_arg11 (by decide) (by decide)).trans (V_main_arg11 m c))⟩) h

/-! ## What the body leaves in the output window's buffer -/

abbrev rX : Rect S256x1280 := Rect.unit (s := S256x1280) ![0, 0] S256x1280.size inb_S256x1280_S256x1280_0_0
abbrev rW : Rect S3840x1280 := Rect.unit (s := S3840x1280) ![0, 0] S3840x1280.size inb_S3840x1280_S3840x1280_0_0
abbrev rBias : Rect S1x3840 := Rect.unit (s := S1x3840) ![0, 0] S1x3840.size inb_S1x3840_S1x3840_0_0
abbrev rA : Rect S24x1280 := Rect.unit (s := S24x1280) ![0, 0] S24x1280.size inb_S24x1280_S24x1280_0_0
abbrev rB : Rect S3840x24 := Rect.unit (s := S3840x24) ![0, 0] S3840x24.size inb_S3840x24_S3840x24_0_0
abbrev rO : Rect S256x3840 := Rect.unit (s := S256x3840) ![0, 0] S256x3840.size inb_S256x3840_S256x3840_0_0

/-- The output block after the body, from the five input blocks: its one whole store. -/
def out0_5 (x0 : Vec F S256x1280 .f32) (x1 : Vec F S3840x1280 .bf16) (x2 : Vec F S1x3840 .f32) (x3 : Vec F S24x1280 .bf16) (x4 : Vec F S3840x24 .bf16) : Vec F S256x3840 .f32 :=
  View.canon [⟨rO, k0_pay1 (View.ld x0 rX) (View.ld x1 rW) (View.ld x2 rBias) (View.ld x3 rA) (View.ld x4 rB)⟩]

/-- The one store covers the block. -/
theorem cover0_5 (p0 : Vec F S256x3840 .f32) (y : S256x3840.Idx) :
    ∃ pc ∈ ([⟨rO, p0⟩] : List (View.Piece (Elt F) S256x3840 .f32)), y ∈ pc.1.set :=
  View.cover_of_tiled [⟨rO, p0⟩] S256x3840.size (by rfl) y

/-! ## The body's triple -/

set_option maxHeartbeats 4000000 in
/-- The body on whole staging buffers, the inputs' at contents `xW` and the output's at anything, runs to the
    continuation holding the inputs' as they were and the output's at `out0_5` of the inputs'. -/
theorem sound_kernel (c : Dev nD) (E : Set ℕ) (i : grid0.Coords) (arg1 : Memref sig .tc .vmem S256x1280 .f32) (harg1 : arg1.IsWhole) (arg2 : Memref sig .tc .vmem S3840x1280 .bf16) (harg2 : arg2.IsWhole) (arg3 : Memref sig .tc .vmem S1x3840 .f32) (harg3 : arg3.IsWhole) (arg4 : Memref sig .tc .vmem S24x1280 .bf16) (harg4 : arg4.IsWhole) (arg5 : Memref sig .tc .vmem S3840x24 .bf16) (harg5 : arg5.IsWhole) (arg6 : Memref sig .tc .vmem S256x3840 .f32) (harg6 : arg6.IsWhole)
    (x0 : Vec F S256x1280 .f32) (x1 : Vec F S3840x1280 .bf16) (x2 : Vec F S1x3840 .f32) (x3 : Vec F S24x1280 .bf16) (x4 : Vec F S3840x24 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2 x3 x4)) -∗ K ⟨⟩))
      ⊢ wp frame (wpE (defs₀ (F := F)) Variants.none c none) E (cc0__lora_qkv_kernel i arg1 harg1 arg2 harg2 arg3 harg3 arg4 harg4 arg5 harg5 arg6 harg6) K := by
  simp only [cc0__lora_qkv_kernel_eq_skeleton]; unfold cc0__lora_qkv_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The launch's proof data -/

/-- On core `c`: the arrays as the launch finds them; after the body at point `t` each input's buffer at its block
    and the output's at `out0_5` of the input blocks; nothing else held, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out0_5 (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = out0_5 (iblk m c 0 t) (iblk m c 1 t) (iblk m c 2 t) (iblk m c 3 t) (iblk m c 4 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so the body's triple applies; the invariant and the
    core's duties pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates without a fault, every array of the launch ends at what
    the proof data say, and every other unscoped buffer as the closing reshape leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- THE FRAME, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (run_main m ρ)

end Cert.KernelIdeal.Hand

end
-- ==== Proof.LibRowDot.lean ====
/-
  A matrix product against a row-major weight, read at an index.

  The dimension numbers of an [a, c] × [b, c] → [a, b] product contract axis 1 of BOTH operands and have no batch
  axis: the right operand is a stack of b rows of length c, and result entry (p, q) is the inner product of the left
  operand's row p with the right operand's row q. At result index (p, q) and contraction position k the left operand
  is read at (p, k) and the right operand at (q, k), so the sum over the contraction shape's one-axis index set is
  the sum over k : Fin c of lhs (p, k) * rhs (q, k) — in any commutative additive monoid with a product, the
  extended reals included. The statement is over variable extents; a printed record with these six lists is this
  one by reflexivity.
-/
import Idealize.ShloMosaic.Lib.ValueIdx
import Idealize.ShloMosaic.PureOps.Ideal.Laws

noncomputable section

namespace Cert.Lib.RowDot

open Idealize.ShloMosaic Idealize.ShloMosaic.ValueIdx
open scoped BigOperators

variable {a c b : Nat}

/-- The dimension numbers of the product [a, c] × [b, c] → [a, b] that contracts the second axis of both. -/
abbrev dims (wf : DotDims.WF ⟨2, ![a, c]⟩ ⟨2, ![b, c]⟩ ⟨2, ![a, b]⟩ [1] [1] [0] [0] [] []) :
    DotDims ⟨2, ![a, c]⟩ ⟨2, ![b, c]⟩ ⟨2, ![a, b]⟩ where
  lhsContracting := [1]
  rhsContracting := [1]
  lhsNonContracting := [0]
  rhsNonContracting := [0]
  lhsBatch := []
  rhsBatch := []
  wf := wf

variable (wf : DotDims.WF ⟨2, ![a, c]⟩ ⟨2, ![b, c]⟩ ⟨2, ![a, b]⟩ [1] [1] [0] [0] [] [])

/-- The left operand's row is the result's row. -/
theorem lhs_row (i : (⟨2, ![a, b]⟩ : Shape).Idx) (k : (dims wf).contr.Idx) :
    ((dims wf).lhsIdx i k 0).val = (i 0).val := by
  unfold DotDims.lhsIdx
  rw [dif_neg (show ¬(0 : Fin 2) ∈ (dims wf).lhsBatch from List.not_mem_nil),
    dif_pos (show (0 : Fin 2) ∈ (dims wf).lhsNonContracting from List.mem_singleton.mpr rfl)]
  rfl

/-- The left operand's column is the contraction position. -/
theorem lhs_col (i : (⟨2, ![a, b]⟩ : Shape).Idx) (k : (dims wf).contr.Idx) :
    ((dims wf).lhsIdx i k 1).val = (k ⟨0, Nat.one_pos⟩).val :=
  (dims wf).lhsIdx_val_of_single rfl i k

/-- The right operand's row is the result's column. -/
theorem rhs_row (i : (⟨2, ![a, b]⟩ : Shape).Idx) (k : (dims wf).contr.Idx) :
    ((dims wf).rhsIdx i k 0).val = (i 1).val := by
  unfold DotDims.rhsIdx
  rw [dif_neg (show ¬(0 : Fin 2) ∈ (dims wf).rhsBatch from List.not_mem_nil),
    dif_pos (show (0 : Fin 2) ∈ (dims wf).rhsNonContracting from List.mem_singleton.mpr rfl)]
  rfl

/-- The right operand's column is the contraction position. -/
theorem rhs_col (i : (⟨2, ![a, b]⟩ : Shape).Idx) (k : (dims wf).contr.Idx) :
    ((dims wf).rhsIdx i k 1).val = (k ⟨0, Nat.one_pos⟩).val :=
  (dims wf).rhsIdx_val_of_single rfl i k

/-- The product's sum at (p, q): over k, the left operand at (p, k) times the right operand at (q, k). -/
theorem sum_apply {M : Type*} [AddCommMonoid M] [Mul M] (lhs : (⟨2, ![a, c]⟩ : Shape).Idx → M)
    (rhs : (⟨2, ![b, c]⟩ : Shape).Idx → M) (p : Fin a) (q : Fin b) :
    ∑ k : (dims wf).contr.Idx, lhs ((dims wf).lhsIdx (ix2 p q) k) * rhs ((dims wf).rhsIdx (ix2 p q) k)
      = ∑ k : Fin c, lhs (ix2 p k) * rhs (ix2 q k) := by
  rw [← Equiv.sum_comp (contrEquiv1 (dims wf) c rfl rfl).symm]
  refine Finset.sum_congr rfl fun k _ => ?_
  have hk := contrEquiv1_symm_val (dims wf) c rfl rfl k
  have el : (dims wf).lhsIdx (ix2 p q) ((contrEquiv1 (dims wf) c rfl rfl).symm k) = ix2 p k :=
    funext fun ax => Fin.ext (by
      match ax with
      | ⟨0, _⟩ => exact lhs_row wf _ _
      | ⟨1, _⟩ => exact (lhs_col wf _ _).trans hk)
  have er : (dims wf).rhsIdx (ix2 p q) ((contrEquiv1 (dims wf) c rfl rfl).symm k) = ix2 q k :=
    funext fun ax => Fin.ext (by
      match ax with
      | ⟨0, _⟩ => exact rhs_row wf _ _
      | ⟨1, _⟩ => exact (rhs_col wf _ _).trans hk)
  rw [el, er]

/-- A kernel's product into a zero accumulator, at the exact values, read at (p, q). -/
theorem matmul_zero_apply {φ₁ φ₂ : FTy} (prec : Option ContractPrecision) (lhs : FVec Ideal ⟨2, ![a, c]⟩ φ₁)
    (rhs : FVec Ideal ⟨2, ![b, c]⟩ φ₂) (p : Fin a) (q : Fin b) :
    matmul (dims wf) prec lhs rhs (constant ⟨2, ![a, b]⟩ .f32 0x00000000#32) (ix2 p q)
      = ∑ k : Fin c, lhs (ix2 p k) * rhs (ix2 q k) :=
  (Ideal.matmul_constant_zero_apply (dims wf) prec lhs rhs (ix2 p q)).trans (sum_apply wf lhs rhs p q)

end Cert.Lib.RowDot

end
-- ==== Proof.Spec.lean ====
/-
  What both programs compute, as functions of the argument arrays read index by index on the extended reals.

  A token (b, h, v) of the input has 1280 features x[b,h,v,·]. The result has 3840 features per token, three
  slices of 1280 (queries, keys, values). Feature o of slice k is

      ∑ c, x[c] · W[1280·k + o, c]  +  bias[1280·k + o]  +  (∑ r < 8, (∑ c, x[c] · A_k[r, c]) · B_k[o, r]) · w_k

  (`G`: a dense projection plus a rank-8 correction per slice, scaled by the slice's scalar).

  The kernel works on the tokens laid out as the 32768 rows of a matrix, and fuses the three corrections into one
  rank-24 product: the three A_k stacked into a 24×1280 matrix, and a 3840×24 matrix that is block diagonal, block k
  holding B_k · w_k and zeros elsewhere (`K2` over `x2Of`, `b2Of`, `AallOf`, `BallOf`).
-/
import Idealize.ShloMosaic.PureOps.Ideal
import Idealize.ShloMosaic.Lib.ValueIdx

noncomputable section

open scoped BigOperators

namespace Cert.LoraSpec

open Idealize.ShloMosaic Idealize.ShloMosaic.ValueIdx

abbrev SX : Shape := ⟨4, ![8, 64, 64, 1280]⟩
abbrev SW : Shape := ⟨2, ![3840, 1280]⟩
abbrev SBias : Shape := ⟨1, ![3840]⟩
abbrev SA : Shape := ⟨2, ![8, 1280]⟩
abbrev SB : Shape := ⟨2, ![1280, 8]⟩
abbrev SOne : Shape := ⟨1, ![1]⟩
abbrev SOut : Shape := ⟨4, ![8, 64, 64, 3840]⟩
abbrev SX2 : Shape := ⟨2, ![32768, 1280]⟩
abbrev SBias2 : Shape := ⟨2, ![1, 3840]⟩
abbrev SAall : Shape := ⟨2, ![24, 1280]⟩
abbrev SBall : Shape := ⟨2, ![3840, 24]⟩
abbrev SOut2 : Shape := ⟨2, ![32768, 3840]⟩

/-- Every entry of an array of extended reals is a real number. -/
def AllReal {s : Shape} (f : s.Idx → EReal) : Prop := ∀ i, ∃ r : ℝ, f i = (r : EReal)

/-- The dense projection of token (b, h, v) at output feature `o`: `∑ c, x[c] · W[o, c] + bias[o]`. -/
def base (x : SX.Idx → EReal) (W : SW.Idx → EReal) (bias : SBias.Idx → EReal)
    (b : Fin 8) (h v : Fin 64) (o : Fin 3840) : EReal :=
  (∑ c : Fin 1280, x (ix4 b h v c) * W (ix2 o c)) + bias (ix1 o)

/-- One rank-8 correction of token (b, h, v) at feature `o` of its slice: `(∑ r, (∑ c, x[c] · A[r, c]) · B[o, r]) · w`. -/
def leg (x : SX.Idx → EReal) (A : SA.Idx → EReal) (B : SB.Idx → EReal) (w : SOne.Idx → EReal)
    (b : Fin 8) (h v : Fin 64) (o : Fin 1280) : EReal :=
  (∑ r : Fin 8, (∑ c : Fin 1280, x (ix4 b h v c) * A (ix2 r c)) * B (ix2 o r)) * w (ix1 0)

/-- The slice (0 queries, 1 keys, 2 values) an output feature lies in, -/
def slice (o : Fin 3840) : Fin 3 := ⟨o.val / 1280, by have := o.isLt; omega⟩
/-- and its place within the slice. -/
def within (o : Fin 3840) : Fin 1280 := ⟨o.val % 1280, Nat.mod_lt _ (by norm_num)⟩

/-- THE RESULT, index by index: the dense projection plus the slice's rank-8 correction. -/
def G (x : SX.Idx → EReal) (W : SW.Idx → EReal) (bias : SBias.Idx → EReal)
    (A : Fin 3 → SA.Idx → EReal) (B : Fin 3 → SB.Idx → EReal) (w : Fin 3 → SOne.Idx → EReal) : SOut.Idx → EReal :=
  fun j => base x W bias (j 0) (j 1) (j 2) (j 3)
    + leg x (A (slice (j 3))) (B (slice (j 3))) (w (slice (j 3))) (j 0) (j 1) (j 2) (within (j 3))

/-- The row of the token matrix that token (b, h, v) is (row-major). -/
def tok (b : Fin 8) (h v : Fin 64) : Fin 32768 :=
  ⟨4096 * b.val + 64 * h.val + v.val, by have := b.isLt; have := h.isLt; have := v.isLt; omega⟩

/-- The tokens as the rows of a 32768 × 1280 matrix. -/
def x2Of (x : SX.Idx → EReal) : SX2.Idx → EReal := fun j =>
  x (ix4 ⟨(j 0).val / 4096, by have := (j 0).isLt; simp only [Matrix.cons_val_zero] at this; omega⟩
      ⟨(j 0).val / 64 % 64, Nat.mod_lt _ (by norm_num)⟩ ⟨(j 0).val % 64, Nat.mod_lt _ (by norm_num)⟩ (j 1))

/-- The bias as a 1 × 3840 row. -/
def b2Of (bias : SBias.Idx → EReal) : SBias2.Idx → EReal := fun j => bias (ix1 (j 1))

/-- The three 8 × 1280 factors stacked into one 24 × 1280 matrix: row `8 k + r` is row `r` of `A k`. -/
def AallOf (A : Fin 3 → SA.Idx → EReal) : SAall.Idx → EReal := fun j =>
  A ⟨(j 0).val / 8, by have := (j 0).isLt; simp only [Matrix.cons_val_zero] at this; omega⟩
    (ix2 ⟨(j 0).val % 8, Nat.mod_lt _ (by norm_num)⟩ (j 1))

/-- The block-diagonal 3840 × 24 matrix: at row `1280 k + o`, column `8 k' + r`, it holds `B k [o, r] · w k` when
    `k = k'` and zero otherwise. -/
def BallOf (B : Fin 3 → SB.Idx → EReal) (w : Fin 3 → SOne.Idx → EReal) : SBall.Idx → EReal := fun j =>
  if (j 0).val / 1280 = (j 1).val / 8 then
    B ⟨(j 0).val / 1280, by have := (j 0).isLt; simp only [Matrix.cons_val_zero] at this; omega⟩
        (ix2 ⟨(j 0).val % 1280, Nat.mod_lt _ (by norm_num)⟩ ⟨(j 1).val % 8, Nat.mod_lt _ (by norm_num)⟩)
      * w ⟨(j 0).val / 1280, by have := (j 0).isLt; simp only [Matrix.cons_val_zero] at this; omega⟩ (ix1 0)
  else 0

/-- What the kernel's body computes on the matrices it is handed, index by index: the dense product plus the bias
    row, plus the fused rank-24 correction. -/
def K2 (x2 : SX2.Idx → EReal) (W : SW.Idx → EReal) (b2 : SBias2.Idx → EReal)
    (Aall : SAall.Idx → EReal) (Ball : SBall.Idx → EReal) : SOut2.Idx → EReal := fun j =>
  ((∑ c : Fin 1280, x2 (ix2 (j 0) c) * W (ix2 (j 1) c)) + b2 (ix2 0 (j 1)))
    + ∑ r : Fin 24, (∑ c : Fin 1280, x2 (ix2 (j 0) c) * Aall (ix2 r c)) * Ball (ix2 (j 1) r)

end Cert.LoraSpec

end
-- ==== Proof.KernelValue.lean ====
/-
  What the kernel's result array holds after the run, index by index on the extended reals.

  At grid point t the body is handed rows 256 t … 256 t + 255 of the token matrix and the four resident matrices
  whole, and stores one 256 × 3840 block: entry (p, q) is the inner product of token row p with weight row q, plus
  bias entry q, plus the sum over the 24 fused columns r of (token row p · stacked-factor row r) times the
  block-diagonal factor's entry (q, r) — each matrix product a plain sum at the exact values, each change of float
  format the identity. Block t is written back to rows 256 t … of the result, the 128 blocks tile its 32768 rows, so
  the result array is that one function (`Cert.LoraSpec.K2`) of the five matrices the launch was handed. The closing
  reshape then lays row 4096 b + 64 h + v out as token (b, h, v).
-/
import proofs.«111903_j32925219291175_2_alg».proof.Proof.KernelIdealFrame
import proofs.«111903_j32925219291175_2_alg».proof.Proof.LibRowDot
import proofs.«111903_j32925219291175_2_alg».proof.Proof.Spec
import Idealize.ShloMosaic.Lib.Pipeline.Value
import Idealize.ShloMosaic.Lib.ValueLayout
import Idealize.ShloMosaic.Lib.StableHlo.Run

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

theorem hz : (![0, 0] : Fin 2 → Nat) = fun _ => 0 := funext fun a => by fin_cases a <;> rfl

/-! ## The body's block at an index -/

/-- A 1 × 3840 row broadcast over 256 rows, read at (p, q), is the row's entry q. -/
theorem bcast_row (x : FVec Ideal S1x3840 .f32) (h : S1x3840.Broadcasts S256x3840) (p : Fin 256) (q : Fin 3840) :
    broadcastTo S256x3840 x h (ix2 p q) = x (ix2 (0 : Fin 1) q) :=
  broadcastTo_apply x h _ _ (fun a => by
    match a with
    | ⟨0, _⟩ => rfl
    | ⟨1, _⟩ => rfl)

/-- Token row p against the 24 stacked-factor rows: entry (p, r) is their inner product. -/
theorem mid_apply (x0 : FVec Ideal S256x1280 .f32) (x3 : FVec Ideal S24x1280 .bf16) (p : Fin 256) (r : Fin 24) :
    matmul (F := Ideal) dot_S256x1280_S24x1280_S256x24_1_1_0_0_n_n none (truncf (F := Ideal) .bf16 x0 bitsLt_bf16_f32)
        x3 (constant S256x24 .f32 0x00000000#32) (ix2 p r)
      = ∑ c : Fin 1280, x0 (ix2 p c) * x3 (ix2 r c) :=
  Cert.Lib.RowDot.matmul_zero_apply (φ₁ := .bf16) (φ₂ := .bf16) dot_S256x1280_S24x1280_S256x24_1_1_0_0_n_n_wf none _ _ p r

/-- THE BLOCK the body stores, at (p, q), from the five blocks it loaded. -/
theorem pay_apply (x0 : FVec Ideal S256x1280 .f32) (x1 : FVec Ideal S3840x1280 .bf16) (x2 : FVec Ideal S1x3840 .f32)
    (x3 : FVec Ideal S24x1280 .bf16) (x4 : FVec Ideal S3840x24 .bf16) (p : Fin 256) (q : Fin 3840) :
    k0_pay1 (F := Ideal) x0 x1 x2 x3 x4 (ix2 p q)
      = ((∑ c : Fin 1280, x0 (ix2 p c) * x1 (ix2 q c)) + x2 (ix2 (0 : Fin 1) q))
        + ∑ r : Fin 24, (∑ c : Fin 1280, x0 (ix2 p c) * x3 (ix2 r c)) * x4 (ix2 q r) := by
  unfold k0_pay1
  simp only [shapeCast_self]
  refine congrArg₂ (· + ·) (congrArg₂ (· + ·) ?_ ?_) ?_
  · exact Cert.Lib.RowDot.matmul_zero_apply (φ₁ := .bf16) (φ₂ := .bf16) dot_S256x1280_S3840x1280_S256x3840_1_1_0_0_n_n_wf none _ _ p q
  · exact bcast_row x2 _ p q
  · refine (Cert.Lib.RowDot.matmul_zero_apply (φ₁ := .bf16) (φ₂ := .bf16) dot_S256x24_S3840x24_S256x3840_1_1_0_0_n_n_wf none _ _ p q).trans ?_
    refine Finset.sum_congr rfl fun r _ => ?_
    exact congrArg (· * x4 (ix2 q r)) (mid_apply x0 x3 p r)

/-! ## The blocks the body is handed -/

variable (m : (ℓ : Loc nD τ sig) → Buf (Elt Ideal) ℓ) (ρ : Dev nD → PrngReg)

/-- The printed index maps over the grid: the token window and the result window move one block of 256 rows per grid
    point, the four resident windows stay at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The token window's block at point `t` is rows `256 t …` of the token matrix. -/
theorem iblk0_apply (c : Dev nD) (t : Fin cfg0.N) (y : S256x1280.Idx) (k : S32768x1280.Idx)
    (hk0 : (k 0).val = 256 * t.val + (y 0).val) (hk1 : (k 1).val = (y 1).val) :
    (iblk m c 0 t : Vec Ideal S256x1280 .f32) y = (V m c main_v0 : S32768x1280.Idx → EReal) k := by
  obtain ⟨e00, e01, -⟩ := idx_facts t
  have h : ((cfg0.win 0).blk t).view.emb y = k := by
    funext a; apply Fin.ext
    match a with
    | ⟨0, _⟩ => show win0_0.index t (0 : Fin 2) * 256 + 1 * (y 0).val = (k 0).val; rw [e00, hk0]; omega
    | ⟨1, _⟩ => show win0_0.index t (1 : Fin 2) * 1280 + 1 * (y 1).val = (k 1).val; rw [e01, hk1]; omega
  show V m c main_v0 (((cfg0.win 0).blk t).view.emb y) = _
  rw [h]

/-- Each resident window's block is its whole matrix, at every point. -/
theorem iblk1_eq (c : Dev nD) (t : Fin cfg0.N) :
    (iblk m c 1 t : Vec Ideal S3840x1280 .bf16) = (V m c main_v1 : S3840x1280.Idx → EReal) := by
  obtain ⟨-, -, e0, e1, -⟩ := idx_facts t
  funext y
  have h : ((cfg0.win 1).blk t).view.emb y = y := by
    funext a; apply Fin.ext
    match a with
    | ⟨0, _⟩ => show win0_1.index t (0 : Fin 2) * 3840 + 1 * (y 0).val = (y 0).val; rw [e0]; omega
    | ⟨1, _⟩ => show win0_1.index t (1 : Fin 2) * 1280 + 1 * (y 1).val = (y 1).val; rw [e1]; omega
  show V m c main_v1 (((cfg0.win 1).blk t).view.emb y) = _
  rw [h]
theorem iblk2_eq (c : Dev nD) (t : Fin cfg0.N) :
    (iblk m c 2 t : Vec Ideal S1x3840 .f32) = (V m c main_v2 : S1x3840.Idx → EReal) := by
  obtain ⟨-, -, -, -, e0, e1, -⟩ := idx_facts t
  funext y
  have h : ((cfg0.win 2).blk t).view.emb y = y := by
    funext a; apply Fin.ext
    match a with
    | ⟨0, _⟩ => show win0_2.index t (0 : Fin 2) * 1 + 1 * (y 0).val = (y 0).val; rw [e0]; omega
    | ⟨1, _⟩ => show win0_2.index t (1 : Fin 2) * 3840 + 1 * (y 1).val = (y 1).val; rw [e1]; omega
  show V m c main_v2 (((cfg0.win 2).blk t).view.emb y) = _
  rw [h]
theorem iblk3_eq (c : Dev nD) (t : Fin cfg0.N) :
    (iblk m c 3 t : Vec Ideal S24x1280 .bf16) = (V m c main_v18 : S24x1280.Idx → EReal) := by
  obtain ⟨-, -, -, -, -, -, e0, e1, -⟩ := idx_facts t
  funext y
  have h : ((cfg0.win 3).blk t).view.emb y = y := by
    funext a; apply Fin.ext
    match a with
    | ⟨0, _⟩ => show win0_3.index t (0 : Fin 2) * 24 + 1 * (y 0).val = (y 0).val; rw [e0]; omega
    | ⟨1, _⟩ => show win0_3.index t (1 : Fin 2) * 1280 + 1 * (y 1).val = (y 1).val; rw [e1]; omega
  show V m c main_v18 (((cfg0.win 3).blk t).view.emb y) = _
  rw [h]
theorem iblk4_eq (c : Dev nD) (t : Fin cfg0.N) :
    (iblk m c 4 t : Vec Ideal S3840x24 .bf16) = (V m c main_v19 : S3840x24.Idx → EReal) := by
  obtain ⟨-, -, -, -, -, -, -, -, e0, e1, -⟩ := idx_facts t
  funext y
  have h : ((cfg0.win 4).blk t).view.emb y = y := by
    funext a; apply Fin.ext
    match a with
    | ⟨0, _⟩ => show win0_4.index t (0 : Fin 2) * 3840 + 1 * (y 0).val = (y 0).val; rw [e0]; omega
    | ⟨1, _⟩ => show win0_4.index t (1 : Fin 2) * 24 + 1 * (y 1).val = (y 1).val; rw [e1]; omega
  show V m c main_v19 (((cfg0.win 4).blk t).view.emb y) = _
  rw [h]

/-! ## From blocks to the result array -/

/-- The five matrices the launch is handed, as it finds them. -/
abbrev KV (c : Dev nD) : S32768x3840.Idx → EReal :=
  Cert.LoraSpec.K2 (V m c main_v0 : S32768x1280.Idx → EReal) (V m c main_v1 : S3840x1280.Idx → EReal)
    (V m c main_v2 : S1x3840.Idx → EReal) (V m c main_v18 : S24x1280.Idx → EReal) (V m c main_v19 : S3840x24.Idx → EReal)

/-- The block stored at point `t`, at (p, q), is the one function of the five matrices at row `256 t + p`. -/
theorem blk_at (c : Dev nD) (t : Fin cfg0.N) (j : S256x3840.Idx) (k : S32768x3840.Idx)
    (hk0 : (k 0).val = 256 * t.val + (j 0).val) (hk1 : (k 1).val = (j 1).val) :
    k0_pay1 (F := Ideal) (iblk m c 0 t) (V m c main_v1 : S3840x1280.Idx → EReal) (V m c main_v2 : S1x3840.Idx → EReal)
        (V m c main_v18 : S24x1280.Idx → EReal) (V m c main_v19 : S3840x24.Idx → EReal) j = KV m c k := by
  obtain ⟨p, q, rfl⟩ : ∃ (p : Fin 256) (q : Fin 3840), j = ix2 p q := ⟨j 0, j 1, eq_ix2 j⟩
  obtain ⟨P, Q, rfl⟩ : ∃ (P : Fin 32768) (Q : Fin 3840), k = ix2 P Q := ⟨k 0, k 1, eq_ix2 k⟩
  obtain rfl : Q = q := Fin.ext hk1
  refine (pay_apply _ _ _ _ _ p Q).trans ?_
  have hx : ∀ cc : Fin 1280, (iblk m c 0 t : Vec Ideal S256x1280 .f32) (ix2 p cc) = (V m c main_v0 : S32768x1280.Idx → EReal) (ix2 P cc) :=
    fun cc => iblk0_apply m c t _ _ hk0 rfl
  simp only [hx]
  rfl

/-- WHAT POINT `t` WRITES BACK is block `t` of that function. -/
theorem flushed_eq (c : Dev nD) (t : Fin cfg0.N) :
    (dats m 0 c).flushed 5 t = ((cfg0.win 5).blk t).view.read (Elt Ideal) (KV m c) := by
  obtain ⟨-, -, -, -, -, -, -, -, -, -, e50, e51⟩ := idx_facts t
  show (cfg0.win 5).cut (grid0.coords t) ((dats m 0 c).after 5 t) = _
  rw [after0_5]
  unfold out0_5
  rw [View.canon_unit_zero hz]
  simp only [View.ld_unit_zero (S := S256x1280) hz, View.ld_unit_zero (S := S3840x1280) hz, View.ld_unit_zero (S := S1x3840) hz,
    View.ld_unit_zero (S := S24x1280) hz, View.ld_unit_zero (S := S3840x24) hz]
  rw [iblk1_eq, iblk2_eq, iblk3_eq, iblk4_eq]
  funext j
  refine blk_at m c t j _ ?_ ?_
  · show win0_5.index t (0 : Fin 2) * 256 + 1 * (j 0).val = 256 * t.val + (j 0).val; rw [e50]; omega
  · show win0_5.index t (1 : Fin 2) * 3840 + 1 * (j 1).val = (j 1).val; rw [e51]; omega

/-- An index of the result array is in point `t`'s block iff each coordinate is in the block's range. -/
theorem mem_blk (t : Fin cfg0.N) (i : S32768x3840.Idx) :
    i ∈ ((cfg0.win 5).blk t).view.set ↔ ∀ a : Fin 2, win0_5.index t a * S256x3840.size a ≤ (i a).val ∧ (i a).val < win0_5.index t a * S256x3840.size a + S256x3840.size a := by
  show i ∈ ((View.whole main_v20).slice (win0_5.rect t)).set ↔ _
  rw [View.set_slice_whole, Rect.mem_set_unit]
  exact Iff.rfl

/-- The 128 blocks tile the result array: row `r` is in block `r / 256`. -/
theorem cover (i : S32768x3840.Idx) : ∃ t : Fin cfg0.N, (cfg0.win 5).flush t = true ∧ i ∈ ((cfg0.win 5).blk t).view.set := by
  have hi0 : (i 0).val < 32768 := (i 0).isLt
  have hi1 : (i 1).val < 3840 := (i 1).isLt
  have hN : cfg0.N = 128 := N_0
  obtain ⟨t, ht⟩ : ∃ t : Fin cfg0.N, t.val = (i 0).val / 256 := ⟨⟨(i 0).val / 256, by omega⟩, rfl⟩
  obtain ⟨-, -, -, -, -, -, -, -, -, -, e50, e51⟩ := idx_facts t
  refine ⟨t, flush0_5 t, ?_⟩
  rw [mem_blk]
  intro a
  match a with
  | ⟨0, _⟩ => show win0_5.index t (0 : Fin 2) * 256 ≤ (i 0).val ∧ (i 0).val < win0_5.index t (0 : Fin 2) * 256 + 256; rw [e50]; omega
  | ⟨1, _⟩ => show win0_5.index t (1 : Fin 2) * 3840 ≤ (i 1).val ∧ (i 1).val < win0_5.index t (1 : Fin 2) * 3840 + 3840; rw [e51]; omega

/-- THE RESULT ARRAY of the launch after the run. -/
theorem final5 (c : Dev nD) : (dats m 0 c).arrAt 5 cfg0.N = KV m c :=
  (dats m 0 c).arrAt_eq_of_cover 5 (KV m c) (fun t _ => flushed_eq m c t) cover

/-! ## The closing reshape -/

/-- The program's result buffer after the closing reshape. -/
theorem tail_v21 (c : Dev nD) :
    Pipeline.afterTail₀ cfgs (dats m) 0 (V0 m) [hostOps1] c main_v21 = (fun j => KV m c (ix2 (Cert.LoraSpec.tok (j 0) (j 1) (j 2)) (j 3)) : S8x64x64x3840.Idx → EReal) := by
  unfold Pipeline.afterTail₀
  show StableHlo.after hostOps1 _ (Proc.devRef .tc main_v21) = _
  after_results
  funext j
  obtain ⟨b, h, v, o, rfl⟩ : ∃ (b : Fin 8) (h v : Fin 64) (o : Fin 3840), j = ix4 b h v o := ⟨j 0, j 1, j 2, j 3, eq_ix4 j⟩
  show shapeCast S8x64x64x3840 (Pipeline.withArrays (cfgs 0).spec c (V0 m c) (fun w => (dats m 0 c).arrAt w (cfgs 0).N)
      (Proc.devRef .tc main_v20) : S32768x3840.Idx → EReal) shapeCasts_S32768x3840_S8x64x64x3840 (ix4 b h v o) = _
  refine (shapeCast_apply _ _ (ix4 b h v o) (ix2 (Cert.LoraSpec.tok b h v) o) ?_).trans ?_
  · rw [Shape.rowMajor_val_two, Shape.rowMajor_val_four]
    show (4096 * b.val + 64 * h.val + v.val) * 3840 + o.val = ((b.val * 64 + h.val) * 64 + v.val) * 3840 + o.val
    omega
  · exact congrFun ((Pipeline.withArrays_arr spec0 launch0.win.arr_inj c _ _ 5).trans (final5 m c)) _

/-! ## The run, read -/

/-- Every weakly fair execution of the program terminates without a fault with the result buffer at the one function
    of the five matrices the launch was handed, laid out token by token, and the twelve arguments unchanged. -/
theorem run_read : θ_run defs (onTc (τ := τ) (main (F := Ideal))) ⟨m, fun _ => 0, ρ⟩ fun r => ∀ c : Dev nD,
      r.2.mem ((c.tc : Thread nD τ).loc main_v21) = (fun j => KV m c (ix2 (Cert.LoraSpec.tok (j 0) (j 1) (j 2)) (j 3)) : S8x64x64x3840.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨((h c).2 main_v21 (Pipeline.mem_restRefs_of main_v21 (by decide) (by decide))).trans (tail_v21 m c),
      ((h c).2 main_arg0 (Pipeline.mem_restRefs_of main_arg0 (by decide) (by decide))).trans ((tail_keeps m (dats m) c main_arg0 (by decide) (by decide)).trans (V_main_arg0 m c)),
      ((h c).2 main_arg1 (Pipeline.mem_restRefs_of main_arg1 (by decide) (by decide))).trans ((tail_keeps m (dats m) c main_arg1 (by decide) (by decide)).trans (V_main_arg1 m c)),
      ((h c).2 main_arg2 (Pipeline.mem_restRefs_of main_arg2 (by decide) (by decide))).trans ((tail_keeps m (dats m) c main_arg2 (by decide) (by decide)).trans (V_main_arg2 m c)),
      ((h c).2 main_arg3 (Pipeline.mem_restRefs_of main_arg3 (by decide) (by decide))).trans ((tail_keeps m (dats m) c main_arg3 (by decide) (by decide)).trans (V_main_arg3 m c)),
      ((h c).2 main_arg4 (Pipeline.mem_restRefs_of main_arg4 (by decide) (by decide))).trans ((tail_keeps m (dats m) c main_arg4 (by decide) (by decide)).trans (V_main_arg4 m c)),
      ((h c).2 main_arg5 (Pipeline.mem_restRefs_of main_arg5 (by decide) (by decide))).trans ((tail_keeps m (dats m) c main_arg5 (by decide) (by decide)).trans (V_main_arg5 m c)),
      ((h c).2 main_arg6 (Pipeline.mem_restRefs_of main_arg6 (by decide) (by decide))).trans ((tail_keeps m (dats m) c main_arg6 (by decide) (by decide)).trans (V_main_arg6 m c)),
      ((h c).2 main_arg7 (Pipeline.mem_restRefs_of main_arg7 (by decide) (by decide))).trans ((tail_keeps m (dats m) c main_arg7 (by decide) (by decide)).trans (V_main_arg7 m c)),
      ((h c).2 main_arg8 (Pipeline.mem_restRefs_of main_arg8 (by decide) (by decide))).trans ((tail_keeps m (dats m) c main_arg8 (by decide) (by decide)).trans (V_main_arg8 m c)),
      ((h c).2 main_arg9 (Pipeline.mem_restRefs_of main_arg9 (by decide) (by decide))).trans ((tail_keeps m (dats m) c main_arg9 (by decide) (by decide)).trans (V_main_arg9 m c)),
      ((h c).2 main_arg10 (Pipeline.mem_restRefs_of main_arg10 (by decide) (by decide))).trans ((tail_keeps m (dats m) c main_arg10 (by decide) (by decide)).trans (V_main_arg10 m c)),
      ((h c).2 main_arg11 (Pipeline.mem_restRefs_of main_arg11 (by decide) (by decide))).trans ((tail_keeps m (dats m) c main_arg11 (by decide) (by decide)).trans (V_main_arg11 m c))⟩) (run_main m ρ)

end Cert.KernelIdeal.HandValue

end
-- ==== Proof.HostPrefix.lean ====
/-
  The arrays the fused product is applied to, as functions of the arguments.

  Before the product the arguments are rearranged: the tokens' array is read as a 32768 × 1280 matrix, the bias as
  a one-row matrix, the three 8 × 1280 factors are stacked into one 24 × 1280 matrix, and the three 1280 × 8 factors,
  each scaled by its scalar, are placed on the diagonal of a 3840 × 24 matrix whose other blocks are zero. A change
  of float format is the identity on extended reals. Each of the five arrays is first written as the composed term
  of the operations that produce it, then read entry by entry against `Cert.LoraSpec`.
-/
import proofs.«111903_j32925219291175_2_alg».proof.Proof.Gen.KernelIdeal.Launch
import proofs.«111903_j32925219291175_2_alg».proof.Proof.Spec
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.HostPrefix

open Cert.KernelIdeal Cert.KernelIdeal.Gen Idealize.ShloMosaic Idealize.ShloMosaic.TcCoe Idealize.SL.Sem
open Idealize.ShloMosaic.StableHlo Idealize.ShloMosaic.ValueIdx

/-! ## Reading a concatenation of three equal pieces -/

section Pure

variable {α : Type}

/-- Three blocks of `n` rows stacked: row `n k + r` of the stack is row `r` of block `k`. -/
theorem cat3_rows {n m N : Nat} (x : Fin 3 → (⟨2, ![n, m]⟩ : Shape).Idx → α)
    (h : Shape.Concatenates [⟨2, ![n, m]⟩, ⟨2, ![n, m]⟩, ⟨2, ![n, m]⟩] ⟨2, ![N, m]⟩ 0)
    (j : (⟨2, ![N, m]⟩ : Shape).Idx) (k : Fin 3) (r : Fin n) (hj : (j 0).val = n * k.val + r.val) :
    concatenate ⟨2, ![N, m]⟩ 0 [⟨⟨2, ![n, m]⟩, x 0⟩, ⟨⟨2, ![n, m]⟩, x 1⟩, ⟨⟨2, ![n, m]⟩, x 2⟩] h j = x k (ix2 r (j 1)) := by
  have hi : ∀ b : Fin 2, b.cast (rfl : (⟨2, ![n, m]⟩ : Shape).rank = (⟨2, ![N, m]⟩ : Shape).rank) ≠ 0 →
      ((ix2 r (j 1) : (⟨2, ![n, m]⟩ : Shape).Idx) b).val = (j (b.cast rfl)).val := fun b hb =>
    match b, hb with
    | ⟨0, _⟩, hb => absurd rfl hb
    | ⟨1, _⟩, _ => rfl
  match k, hj with
  | ⟨0, _⟩, hj =>
    exact concatenate_apply_piece 0 [⟨⟨2, ![n, m]⟩, x 0⟩, ⟨⟨2, ![n, m]⟩, x 1⟩, ⟨⟨2, ![n, m]⟩, x 2⟩] h j 0 (by show 0 < 3; omega) _ (x 0) rfl rfl 0 rfl (ix2 r (j 1)) hi
      (by have : (j 0).val = n * 0 + r.val := hj; show 0 + r.val = (j 0).val; omega)
  | ⟨1, _⟩, hj =>
    exact concatenate_apply_piece 0 [⟨⟨2, ![n, m]⟩, x 0⟩, ⟨⟨2, ![n, m]⟩, x 1⟩, ⟨⟨2, ![n, m]⟩, x 2⟩] h j 1 (by show 1 < 3; omega) _ (x 1) rfl rfl n rfl (ix2 r (j 1)) hi
      (by have : (j 0).val = n * 1 + r.val := hj; show n + r.val = (j 0).val; omega)
  | ⟨2, _⟩, hj =>
    exact concatenate_apply_piece 0 [⟨⟨2, ![n, m]⟩, x 0⟩, ⟨⟨2, ![n, m]⟩, x 1⟩, ⟨⟨2, ![n, m]⟩, x 2⟩] h j 2 (by show 2 < 3; omega) _ (x 2) rfl rfl (n + n) rfl (ix2 r (j 1)) hi
      (by have : (j 0).val = n * 2 + r.val := hj; show n + n + r.val = (j 0).val; omega)

/-- Three blocks of `m` columns side by side: column `m k + r` is column `r` of block `k`. -/
theorem cat3_cols {n m M : Nat} (x : Fin 3 → (⟨2, ![n, m]⟩ : Shape).Idx → α)
    (h : Shape.Concatenates [⟨2, ![n, m]⟩, ⟨2, ![n, m]⟩, ⟨2, ![n, m]⟩] ⟨2, ![n, M]⟩ 1)
    (j : (⟨2, ![n, M]⟩ : Shape).Idx) (k : Fin 3) (r : Fin m) (hj : (j 1).val = m * k.val + r.val) :
    concatenate ⟨2, ![n, M]⟩ 1 [⟨⟨2, ![n, m]⟩, x 0⟩, ⟨⟨2, ![n, m]⟩, x 1⟩, ⟨⟨2, ![n, m]⟩, x 2⟩] h j = x k (ix2 (j 0) r) := by
  have hi : ∀ b : Fin 2, b.cast (rfl : (⟨2, ![n, m]⟩ : Shape).rank = (⟨2, ![n, M]⟩ : Shape).rank) ≠ 1 →
      ((ix2 (j 0) r : (⟨2, ![n, m]⟩ : Shape).Idx) b).val = (j (b.cast rfl)).val := fun b hb =>
    match b, hb with
    | ⟨0, _⟩, _ => rfl
    | ⟨1, _⟩, hb => absurd rfl hb
  match k, hj with
  | ⟨0, _⟩, hj =>
    exact concatenate_apply_piece 1 [⟨⟨2, ![n, m]⟩, x 0⟩, ⟨⟨2, ![n, m]⟩, x 1⟩, ⟨⟨2, ![n, m]⟩, x 2⟩] h j 0 (by show 0 < 3; omega) _ (x 0) rfl rfl 0 rfl (ix2 (j 0) r) hi
      (by have : (j 1).val = m * 0 + r.val := hj; show 0 + r.val = (j 1).val; omega)
  | ⟨1, _⟩, hj =>
    exact concatenate_apply_piece 1 [⟨⟨2, ![n, m]⟩, x 0⟩, ⟨⟨2, ![n, m]⟩, x 1⟩, ⟨⟨2, ![n, m]⟩, x 2⟩] h j 1 (by show 1 < 3; omega) _ (x 1) rfl rfl m rfl (ix2 (j 0) r) hi
      (by have : (j 1).val = m * 1 + r.val := hj; show m + r.val = (j 1).val; omega)
  | ⟨2, _⟩, hj =>
    exact concatenate_apply_piece 1 [⟨⟨2, ![n, m]⟩, x 0⟩, ⟨⟨2, ![n, m]⟩, x 1⟩, ⟨⟨2, ![n, m]⟩, x 2⟩] h j 2 (by show 2 < 3; omega) _ (x 2) rfl rfl (m + m) rfl (ix2 (j 0) r) hi
      (by have : (j 1).val = m * 2 + r.val := hj; show m + m + r.val = (j 1).val; omega)

end Pure

/-! ## Reading back a line of host operations -/

/-- The last entry of a literal family of three. -/
theorem vec3_two {α : Type} (a b c : α) : (![a, b, c] : Fin 3 → α) 2 = c := rfl

/-- The results of a line of host operations, read back one operation at a time: an operation's result at its own
    buffer is its function's value, at any other buffer what was there; an operand taken from a literal family
    `![a, b, c]` at a literal place is evaluated in between. -/
local macro "host_results" : tactic =>
  `(tactic| repeat (first
      | rw [nullary_result] | rw [unary_result] | rw [binary_result] | rw [reshape_result] | rw [nary_result]
      | (rw [nullary_result_ne]; rotate_left; decide)
      | (rw [unary_result_ne]; rotate_left; decide)
      | (rw [binary_result_ne]; rotate_left; decide)
      | (rw [reshape_result_ne]; rotate_left; decide)
      | (rw [nary_result_ne]; rotate_left; decide)
      | dsimp only [Matrix.cons_val_zero, Matrix.cons_val_one, vec3_two]))

/-! ## The blocks of the block-diagonal matrix -/

/-- A 1280 × 8 factor scaled entrywise by the one-element array `w`, read as a scalar and spread over the shape. -/
abbrev scaled (B : S1280x8.Idx → EReal) (w : S1.Idx → EReal) : S1280x8.Idx → EReal :=
  mulf (F := Ideal) (φ := .f32) B (broadcastInDim S1280x8 ![] bcast_S_S1280x8 (shapeCast S_ w shapeCasts_S1_S_))

/-- The 1280 × 8 block of zeros: the constant of bit pattern zero spread over the shape. -/
abbrev zeros : S1280x8.Idx → EReal :=
  broadcastInDim S1280x8 ![] bcast_S_S1280x8 (constant (F := Ideal) S_ .f32 0x00000000#32)

/-- Three 1280 × 8 blocks side by side. -/
abbrev side (x0 x1 x2 : S1280x8.Idx → EReal) : S1280x24.Idx → EReal :=
  concatenate S1280x24 1 [⟨S1280x8, x0⟩, ⟨S1280x8, x1⟩, ⟨S1280x8, x2⟩] concatenates_S1280x8_S1280x8_S1280x8_S1280x24_d1

/-! ## The pieces, entry by entry -/

section Reads

open Cert.LoraSpec

/-- The tokens' array read as a matrix: row `4096 b + 64 h + v` is token `(b, h, v)` (row-major). -/
theorem reshape_tokens (x : S8x64x64x1280.Idx → EReal) :
    shapeCast S32768x1280 x shapeCasts_S8x64x64x1280_S32768x1280 = x2Of x := by
  funext j
  have h0 := idx2_lt0 j
  refine shapeCast_apply x _ j (ix4 ⟨(j 0).val / 4096, by omega⟩ ⟨(j 0).val / 64 % 64, Nat.mod_lt _ (by norm_num)⟩
    ⟨(j 0).val % 64, Nat.mod_lt _ (by norm_num)⟩ (j 1)) ?_
  rw [Shape.rowMajor_val_four, Shape.rowMajor_val_two]
  show (((j 0).val / 4096 * 64 + (j 0).val / 64 % 64) * 64 + (j 0).val % 64) * 1280 + (j 1).val = (j 0).val * 1280 + (j 1).val
  omega

/-- The bias read as a one-row matrix. -/
theorem reshape_bias (b : S3840.Idx → EReal) : shapeCast S1x3840 b shapeCasts_S3840_S1x3840 = b2Of b := by
  funext j
  have h0 := idx2_lt0 j
  refine shapeCast_apply b _ j (ix1 (j 1)) ?_
  rw [Shape.rowMajor_val_one, Shape.rowMajor_val_two]
  show (j 1).val = (j 0).val * 3840 + (j 1).val
  omega

/-- The scaled factor at an entry: the factor's entry times the scalar. -/
theorem scaled_apply (B : S1280x8.Idx → EReal) (w : S1.Idx → EReal) (i : S1280x8.Idx) :
    scaled B w i = B i * w (ix1 0) := by
  unfold scaled
  rw [mulf_apply, broadcastInDim_apply _ _ _ i ix0 (fun a => a.elim0), shapeCast_dropUnit_apply]
  exact congrArg (fun t => B i * w t) (eq_ix1 _)

/-- The zero block's entries are zero. -/
theorem zeros_apply (i : S1280x8.Idx) : zeros i = 0 := by
  unfold zeros
  rw [broadcastInDim_apply _ _ _ i ix0 (fun a => a.elim0), constant_apply, Ideal.ofBits_zero_f32]

/-- Block `(k, k')` of the block-diagonal matrix: the scaled factor on the diagonal, zeros off it. -/
def blk (B : Fin 3 → S1280x8.Idx → EReal) (w : Fin 3 → S1.Idx → EReal) (k k' : Fin 3) : S1280x8.Idx → EReal :=
  if k = k' then scaled (B k) (w k) else zeros

theorem blk_apply (B : Fin 3 → S1280x8.Idx → EReal) (w : Fin 3 → S1.Idx → EReal) (k k' : Fin 3) (i : S1280x8.Idx) :
    blk B w k k' i = if k = k' then B k i * w k (ix1 0) else 0 := by
  unfold blk
  split
  · exact scaled_apply _ _ i
  · exact zeros_apply i

/-- The three block rows, each three blocks side by side. -/
theorem rows_eq (B : Fin 3 → S1280x8.Idx → EReal) (w : Fin 3 → S1.Idx → EReal) (k : Fin 3) :
    (![side (scaled (B 0) (w 0)) zeros zeros, side zeros (scaled (B 1) (w 1)) zeros,
        side zeros zeros (scaled (B 2) (w 2))] : Fin 3 → S1280x24.Idx → EReal) k
      = side (blk B w k 0) (blk B w k 1) (blk B w k 2) :=
  match k with
  | ⟨0, _⟩ => rfl
  | ⟨1, _⟩ => rfl
  | ⟨2, _⟩ => rfl

/-- The stacked factors, entry by entry. -/
theorem stack_apply (A : Fin 3 → S8x1280.Idx → EReal) :
    concatenate S24x1280 0 [⟨S8x1280, A 0⟩, ⟨S8x1280, A 1⟩, ⟨S8x1280, A 2⟩] concatenates_S8x1280_S8x1280_S8x1280_S24x1280_d0
      = AallOf A := by
  funext j
  have h0 := idx2_lt0 j
  exact cat3_rows A _ j ⟨(j 0).val / 8, by omega⟩ ⟨(j 0).val % 8, Nat.mod_lt _ (by norm_num)⟩
    (by show (j 0).val = 8 * ((j 0).val / 8) + (j 0).val % 8; omega)

/-- The block-diagonal matrix, entry by entry. -/
theorem blockdiag_apply (B : Fin 3 → S1280x8.Idx → EReal) (w : Fin 3 → S1.Idx → EReal) :
    concatenate S3840x24 0
        [⟨S1280x24, side (scaled (B 0) (w 0)) zeros zeros⟩, ⟨S1280x24, side zeros (scaled (B 1) (w 1)) zeros⟩,
         ⟨S1280x24, side zeros zeros (scaled (B 2) (w 2))⟩] concatenates_S1280x24_S1280x24_S1280x24_S3840x24_d0
      = BallOf B w := by
  funext j
  have h0 := idx2_lt0 j
  have h1 := idx2_lt1 j
  refine (cat3_rows ![side (scaled (B 0) (w 0)) zeros zeros, side zeros (scaled (B 1) (w 1)) zeros,
      side zeros zeros (scaled (B 2) (w 2))] _ j ⟨(j 0).val / 1280, by omega⟩ ⟨(j 0).val % 1280, Nat.mod_lt _ (by norm_num)⟩
    (by show (j 0).val = 1280 * ((j 0).val / 1280) + (j 0).val % 1280; omega)).trans ?_
  rw [rows_eq]
  refine (cat3_cols (blk B w _) _ _ ⟨(j 1).val / 8, by omega⟩ ⟨(j 1).val % 8, Nat.mod_lt _ (by norm_num)⟩
    (by show (j 1).val = 8 * ((j 1).val / 8) + (j 1).val % 8; omega)).trans ?_
  rw [blk_apply]
  show _ = if (j 0).val / 1280 = (j 1).val / 8 then _ else 0
  by_cases hc : (j 0).val / 1280 = (j 1).val / 8
  · rw [if_pos hc, if_pos (Fin.ext hc)]
  · rw [if_neg hc, if_neg (fun e => hc (congrArg Fin.val e))]

end Reads

/-! ## The five arrays -/

section Window

open Cert.LoraSpec

variable (V₀ : Valuation τ sig (Elt Ideal))

/-- The tokens' matrix is the tokens' array, row-major. -/
theorem v0_eq :
    (StableHlo.after (Gen.hostOps0 (F := Ideal)) V₀ (Proc.devRef .tc main_v0) : S32768x1280.Idx → EReal)
      = x2Of (V₀ (Proc.devRef .tc main_arg0) : S8x64x64x1280.Idx → EReal) := by
  refine Eq.trans ?_ (reshape_tokens _)
  delta Gen.hostOps0
  dsimp only [after_cons, after_nil]
  host_results <;> rfl

/-- The dense weights are the argument's: the change of format is the identity. -/
theorem v1_eq :
    (StableHlo.after (Gen.hostOps0 (F := Ideal)) V₀ (Proc.devRef .tc main_v1) : S3840x1280.Idx → EReal)
      = (V₀ (Proc.devRef .tc main_arg1) : S3840x1280.Idx → EReal) := by
  delta Gen.hostOps0
  dsimp only [after_cons, after_nil]
  host_results <;> rfl

/-- The bias row is the bias. -/
theorem v2_eq :
    (StableHlo.after (Gen.hostOps0 (F := Ideal)) V₀ (Proc.devRef .tc main_v2) : S1x3840.Idx → EReal)
      = b2Of (V₀ (Proc.devRef .tc main_arg2) : S3840.Idx → EReal) := by
  refine Eq.trans ?_ (reshape_bias _)
  delta Gen.hostOps0
  dsimp only [after_cons, after_nil]
  host_results <;> rfl

/-- The 24 × 1280 array as the operations' composed term: the three factors stacked, then the format changed. -/
theorem v18_term :
    (StableHlo.after (Gen.hostOps0 (F := Ideal)) V₀ (Proc.devRef .tc main_v18) : S24x1280.Idx → EReal)
      = truncf .bf16 (concatenate S24x1280 0
          [⟨S8x1280, (V₀ (Proc.devRef .tc main_arg3) : S8x1280.Idx → EReal)⟩,
           ⟨S8x1280, (V₀ (Proc.devRef .tc main_arg5) : S8x1280.Idx → EReal)⟩,
           ⟨S8x1280, (V₀ (Proc.devRef .tc main_arg7) : S8x1280.Idx → EReal)⟩]
          concatenates_S8x1280_S8x1280_S8x1280_S24x1280_d0 : FVec Ideal S24x1280 .f32) bitsLt_bf16_f32 := by
  delta Gen.hostOps0
  dsimp only [after_cons, after_nil]
  host_results <;> rfl

/-- The stacked factors. -/
theorem v18_eq :
    (StableHlo.after (Gen.hostOps0 (F := Ideal)) V₀ (Proc.devRef .tc main_v18) : S24x1280.Idx → EReal)
      = AallOf ![(V₀ (Proc.devRef .tc main_arg3) : S8x1280.Idx → EReal), V₀ (Proc.devRef .tc main_arg5),
          V₀ (Proc.devRef .tc main_arg7)] := by
  refine (v18_term V₀).trans ?_
  funext j
  rw [truncf_apply]
  exact congrFun (stack_apply ![(V₀ (Proc.devRef .tc main_arg3) : S8x1280.Idx → EReal),
    V₀ (Proc.devRef .tc main_arg5), V₀ (Proc.devRef .tc main_arg7)]) j

/-- The 3840 × 24 array as the operations' composed term: three block rows stacked, each three blocks side by
    side with the scaled factor on the diagonal, then the format changed. -/
theorem v19_term :
    (StableHlo.after (Gen.hostOps0 (F := Ideal)) V₀ (Proc.devRef .tc main_v19) : S3840x24.Idx → EReal)
      = truncf .bf16 (concatenate S3840x24 0
          [⟨S1280x24, side (scaled (V₀ (Proc.devRef .tc main_arg4)) (V₀ (Proc.devRef .tc main_arg9))) zeros zeros⟩,
           ⟨S1280x24, side zeros (scaled (V₀ (Proc.devRef .tc main_arg6)) (V₀ (Proc.devRef .tc main_arg10))) zeros⟩,
           ⟨S1280x24, side zeros zeros (scaled (V₀ (Proc.devRef .tc main_arg8)) (V₀ (Proc.devRef .tc main_arg11)))⟩]
          concatenates_S1280x24_S1280x24_S1280x24_S3840x24_d0 : FVec Ideal S3840x24 .f32) bitsLt_bf16_f32 := by
  delta Gen.hostOps0
  dsimp only [after_cons, after_nil]
  host_results <;> rfl

/-- The block-diagonal matrix of the scaled factors. -/
theorem v19_eq :
    (StableHlo.after (Gen.hostOps0 (F := Ideal)) V₀ (Proc.devRef .tc main_v19) : S3840x24.Idx → EReal)
      = BallOf ![(V₀ (Proc.devRef .tc main_arg4) : S1280x8.Idx → EReal), V₀ (Proc.devRef .tc main_arg6),
            V₀ (Proc.devRef .tc main_arg8)]
          ![(V₀ (Proc.devRef .tc main_arg9) : S1.Idx → EReal), V₀ (Proc.devRef .tc main_arg10),
            V₀ (Proc.devRef .tc main_arg11)] := by
  refine (v19_term V₀).trans ?_
  funext j
  rw [truncf_apply]
  exact congrFun (blockdiag_apply ![(V₀ (Proc.devRef .tc main_arg4) : S1280x8.Idx → EReal),
      V₀ (Proc.devRef .tc main_arg6), V₀ (Proc.devRef .tc main_arg8)]
    ![(V₀ (Proc.devRef .tc main_arg9) : S1.Idx → EReal), V₀ (Proc.devRef .tc main_arg10),
      V₀ (Proc.devRef .tc main_arg11)]) j

end Window

end Cert.KernelIdeal.HostPrefix

end
-- ==== Proof.Algebra.lean ====
/-
  The fused rank-24 form and the per-slice rank-8 form of the correction agree.

  Row 4096 b + 64 h + v of the token matrix is token (b, h, v). The sum over the 24 fused columns splits into
  three blocks of eight; at output feature o the block-diagonal factor vanishes off block o / 1280, so one block
  survives, and there the scalar of the slice comes out of the sum. That last step is distributivity, which on the
  extended reals needs the terms to be real numbers.
-/
import proofs.«111903_j32925219291175_2_alg».proof.Proof.Spec
import Mathlib.Data.EReal.Basic
import Mathlib.Algebra.BigOperators.Fin

noncomputable section

open scoped BigOperators

namespace Cert.LoraSpec

open Idealize.ShloMosaic Idealize.ShloMosaic.ValueIdx

/-- The coercion of the reals into the extended reals commutes with finite sums. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of products of reals is a real. -/
theorem real_sum_mul {ι : Type*} (s : Finset ι) (f g : ι → EReal)
    (hf : ∀ i, ∃ r : ℝ, f i = (r : EReal)) (hg : ∀ i, ∃ r : ℝ, g i = (r : EReal)) :
    ∃ r : ℝ, ∑ i ∈ s, f i * g i = (r : EReal) := by
  choose f' hf' using hf
  choose g' hg' using hg
  refine ⟨∑ i ∈ s, f' i * g' i, ?_⟩
  rw [coe_finset_sum]
  exact Finset.sum_congr rfl (fun i _ => by rw [hf', hg', EReal.coe_mul])

/-- A common real factor comes out of a finite sum of products of reals. -/
theorem sum_mul_mul_of_real {ι : Type*} (s : Finset ι) (t g : ι → EReal) (w : EReal)
    (ht : ∀ i, ∃ r : ℝ, t i = (r : EReal)) (hg : ∀ i, ∃ r : ℝ, g i = (r : EReal)) (hw : ∃ r : ℝ, w = (r : EReal)) :
    ∑ i ∈ s, t i * (g i * w) = (∑ i ∈ s, t i * g i) * w := by
  choose t' ht' using ht
  choose g' hg' using hg
  obtain ⟨w', rfl⟩ := hw
  have e1 : ∀ i, t i * (g i * (w' : EReal)) = ((t' i * (g' i * w') : ℝ) : EReal) := fun i => by
    rw [ht', hg', EReal.coe_mul, EReal.coe_mul]
  have e2 : ∀ i, t i * g i = ((t' i * g' i : ℝ) : EReal) := fun i => by rw [ht', hg', EReal.coe_mul]
  simp only [e1, e2]
  rw [← coe_finset_sum, ← coe_finset_sum, ← EReal.coe_mul, Finset.sum_mul]
  exact congrArg _ (Finset.sum_congr rfl (fun i _ => (mul_assoc _ _ _).symm))

/-- A sum over 24 columns is the sum over three blocks of eight. -/
theorem sum_fin24 {M : Type*} [AddCommMonoid M] (f : Fin 24 → M) :
    ∑ r, f r = ∑ k : Fin 3, ∑ s : Fin 8, f ⟨8 * k.val + s.val, by omega⟩ := by
  rw [← Fintype.sum_prod_type']
  refine (Fintype.sum_equiv (finProdFinEquiv (m := 3) (n := 8)) _ _ (fun p => ?_)).symm
  exact congrArg f (Fin.ext (by show 8 * p.1.val + p.2.val = p.2.val + 8 * p.1.val; omega))

/-- Row `tok b h v` of the token matrix is token (b, h, v). -/
theorem x2Of_tok (x : SX.Idx → EReal) (b : Fin 8) (h v : Fin 64) (c : Fin 1280) :
    x2Of x (ix2 (tok b h v) c) = x (ix4 b h v c) := by
  have := h.isLt; have := v.isLt
  have hb : ∀ p, (⟨(4096 * b.val + 64 * h.val + v.val) / 4096, p⟩ : Fin 8) = b := fun _ => Fin.ext (by
    show (4096 * b.val + 64 * h.val + v.val) / 4096 = b.val; omega)
  have hh : ∀ p, (⟨(4096 * b.val + 64 * h.val + v.val) / 64 % 64, p⟩ : Fin 64) = h := fun _ => Fin.ext (by
    show (4096 * b.val + 64 * h.val + v.val) / 64 % 64 = h.val; omega)
  have hv : ∀ p, (⟨(4096 * b.val + 64 * h.val + v.val) % 64, p⟩ : Fin 64) = v := fun _ => Fin.ext (by
    show (4096 * b.val + 64 * h.val + v.val) % 64 = v.val; omega)
  show x (ix4 (⟨(4096 * b.val + 64 * h.val + v.val) / 4096, by omega⟩ : Fin 8)
    (⟨(4096 * b.val + 64 * h.val + v.val) / 64 % 64, Nat.mod_lt _ (by norm_num)⟩ : Fin 64)
    (⟨(4096 * b.val + 64 * h.val + v.val) % 64, Nat.mod_lt _ (by norm_num)⟩ : Fin 64) c) = _
  rw [hb, hh, hv]

/-- Row `8 k + s` of the stacked factor is row `s` of the `k`-th factor. -/
theorem AallOf_block (A : Fin 3 → SA.Idx → EReal) (k : Fin 3) (s : Fin 8) (c : Fin 1280) (p : 8 * k.val + s.val < 24) :
    AallOf A (ix2 (⟨8 * k.val + s.val, p⟩ : Fin 24) c) = A k (ix2 s c) := by
  have hk : ∀ q, (⟨(8 * k.val + s.val) / 8, q⟩ : Fin 3) = k := fun _ => Fin.ext (by
    have := s.isLt; show (8 * k.val + s.val) / 8 = k.val; omega)
  have hs : ∀ q, (⟨(8 * k.val + s.val) % 8, q⟩ : Fin 8) = s := fun _ => Fin.ext (by
    have := s.isLt; show (8 * k.val + s.val) % 8 = s.val; omega)
  show A (⟨(8 * k.val + s.val) / 8, by omega⟩ : Fin 3)
    (ix2 (⟨(8 * k.val + s.val) % 8, Nat.mod_lt _ (by norm_num)⟩ : Fin 8) c) = _
  rw [hk, hs]

/-- The block-diagonal factor at feature `o`, column `8 k + s`: the scaled entry of the slice's own factor on the
    block of the slice of `o`, zero on the other two. -/
theorem BallOf_block (B : Fin 3 → SB.Idx → EReal) (w : Fin 3 → SOne.Idx → EReal) (o : Fin 3840) (k : Fin 3) (s : Fin 8)
    (p : 8 * k.val + s.val < 24) :
    BallOf B w (ix2 o (⟨8 * k.val + s.val, p⟩ : Fin 24))
      = if slice o = k then B (slice o) (ix2 (within o) s) * w (slice o) (ix1 0) else 0 := by
  have hs : ∀ q, (⟨(8 * k.val + s.val) % 8, q⟩ : Fin 8) = s := fun _ => Fin.ext (by
    have := s.isLt; show (8 * k.val + s.val) % 8 = s.val; omega)
  have hc : (o.val / 1280 = (8 * k.val + s.val) / 8) ↔ slice o = k := by
    have := s.isLt
    rw [Fin.ext_iff]; show _ ↔ o.val / 1280 = k.val; omega
  show (if o.val / 1280 = (8 * k.val + s.val) / 8 then
      B (slice o) (ix2 (within o) (⟨(8 * k.val + s.val) % 8, Nat.mod_lt _ (by norm_num)⟩ : Fin 8)) * w (slice o) (ix1 0)
    else 0) = _
  rw [hs]
  exact if_congr hc rfl rfl

/-- THE LAW: at row `tok b h v` and feature `o` the fused form is the dense projection plus the rank-8 correction of
    the slice of `o`. -/
theorem K2_eq_G (x : SX.Idx → EReal) (W : SW.Idx → EReal) (bias : SBias.Idx → EReal)
    (A : Fin 3 → SA.Idx → EReal) (B : Fin 3 → SB.Idx → EReal) (w : Fin 3 → SOne.Idx → EReal)
    (hx : AllReal x) (hA : ∀ k, AllReal (A k)) (hB : ∀ k, AllReal (B k)) (hw : ∀ k, AllReal (w k))
    (b : Fin 8) (h v : Fin 64) (o : Fin 3840) :
    K2 (x2Of x) W (b2Of bias) (AallOf A) (BallOf B w) (ix2 (tok b h v) o) = G x W bias A B w (ix4 b h v o) := by
  -- the three inner sums of a token against the rows of the k-th factor
  set t : Fin 3 → Fin 8 → EReal := fun k s => ∑ c : Fin 1280, x (ix4 b h v c) * A k (ix2 s c) with ht
  have htr : ∀ k s, ∃ r : ℝ, t k s = (r : EReal) := fun k s =>
    real_sum_mul _ _ _ (fun c => hx _) (fun c => hA k _)
  show ((∑ c : Fin 1280, x2Of x (ix2 (tok b h v) c) * W (ix2 o c)) + bias (ix1 o))
      + ∑ r : Fin 24, (∑ c : Fin 1280, x2Of x (ix2 (tok b h v) c) * AallOf A (ix2 r c)) * BallOf B w (ix2 o r)
    = ((∑ c : Fin 1280, x (ix4 b h v c) * W (ix2 o c)) + bias (ix1 o))
      + (∑ s : Fin 8, t (slice o) s * B (slice o) (ix2 (within o) s)) * w (slice o) (ix1 0)
  simp only [x2Of_tok]
  congr 1
  rw [sum_fin24]
  simp only [AallOf_block, BallOf_block]
  rw [Finset.sum_eq_single (slice o)]
  · simp only [if_true]
    exact sum_mul_mul_of_real _ _ _ _ (htr _) (fun s => hB _ _) (hw _ _)
  · intro k _ hk
    exact Finset.sum_eq_zero (fun s _ => by rw [if_neg (Ne.symm hk), mul_zero])
  · intro hn; exact absurd (Finset.mem_univ _) hn

end Cert.LoraSpec

end
-- ==== Proof.LibFiniteReal.lean ====
/-
  One element of an "every entry is finite" test, read on the extended reals.

  The test compares the absolute value `max x (-x)` with the f32 pattern of `+∞`, strictly. That pattern denotes the
  top element; the absolute value of `-∞` is `+∞`; so the test passes exactly at the reals. Also: the rank-0 shape
  has a single index (what reading a reduction over all axes at "its one result" needs).
-/
import Idealize.ShloMosaic.PureOps.Ideal.Laws

noncomputable section

namespace Cert.Lib.FiniteReal

open Idealize.ShloMosaic

/-- The f32 pattern `0x7F800000` denotes `+∞`. -/
theorem ofBits_inf_f32 : Ideal.ofBits .f32 0x7F800000#32 = ⊤ := by simp [Ideal.ofBits, Ideal.ieee]

/-- An extended real whose absolute value is strictly below the pattern of `+∞` is a real. -/
theorem real_of_abs_lt_inf (x : EReal)
    (h : Ideal.cmp .olt (max x (-x)) (Ideal.ofBits .f32 0x7F800000#32) = 1#1) : ∃ r : ℝ, x = (r : EReal) := by
  rw [ofBits_inf_f32] at h
  induction x using EReal.rec with
  | bot => exact absurd h (by simp [Ideal.cmp])
  | coe r => exact ⟨r, rfl⟩
  | top => exact absurd h (by simp [Ideal.cmp])

/-- Conversely every real passes the test. -/
theorem abs_lt_inf_of_real (r : ℝ) :
    Ideal.cmp .olt (max (r : EReal) (-(r : EReal))) (Ideal.ofBits .f32 0x7F800000#32) = 1#1 := by
  rw [ofBits_inf_f32]
  have h : max (r : EReal) (-(r : EReal)) < ⊤ := max_lt (EReal.coe_lt_top r) (by rw [← EReal.coe_neg]; exact EReal.coe_lt_top _)
  simp [Ideal.cmp, h]

/-- The rank-0 shape has exactly one index. -/
theorem subsingleton_idx0 : Subsingleton (⟨0, ![]⟩ : Shape).Idx := ⟨fun _ _ => funext fun d => d.elim0⟩

end Cert.Lib.FiniteReal

end
-- ==== Proof.Finite.lean ====
/-
  From the precondition to "every entry of every argument array is a real number".

  The precondition is the conjunction of twelve tests, one per argument array: every entry's absolute value is
  strictly below +∞. Read on the extended reals, the absolute value of ±∞ is +∞, which is not strictly below itself,
  so an entry that passes is neither +∞ nor −∞: it is a real.
-/
import proofs.«111903_j32925219291175_2_alg».proof.Defs
import proofs.«111903_j32925219291175_2_alg».proof.Proof.Gen.Pre_finite_inputs
import proofs.«111903_j32925219291175_2_alg».proof.Proof.Spec
import proofs.«111903_j32925219291175_2_alg».proof.Proof.LibFiniteReal
import Idealize.ShloMosaic.Lib.ReduceAll
import Idealize.ShloMosaic.Lib.IdealHost

noncomputable section

namespace Cert.KernelIdeal.Finite

open Idealize.ShloMosaic Idealize.SL.Sem Idealize.ShloMosaic.ValueIdx Cert.Pre_finite_inputs

/-- The rank-0 shape has one index. -/
local instance : Subsingleton S_.Idx := Cert.Lib.FiniteReal.subsingleton_idx0

/-- A conjunction of two one-bit arrays at an index is the conjunction of the bits. -/
theorem andi_apply {s : Shape} {w : Nat} (a b : IVec s w) (i : s.Idx) : andi a b i = IntOp.andi (a i) (b i) := rfl

/-- One test "every entry has absolute value strictly below +∞", passed, says that every entry is a real. -/
theorem allReal_of_test {s : Shape} {axes : List (Fin s.rank)} (x : FVec Ideal s .f32)
    (hb : S_.BroadcastsInDim s ![]) (hr : s.ReducesTo axes S_) (hu : 0 < S_.numel)
    (e : Host.reduce IntOp.andi (cmpf .olt (Host.absf x)
        (broadcastInDim s ![] hb (constant (F := Ideal) S_ .f32 0x7F800000#32))) (constantI S_ 1 1#1) hr hu ix0 = 1#1) :
    Cert.LoraSpec.AllReal (s := s) x := by
  intro i
  have h := Host.reduce_andi_all _ _ hr hu ix0 e i
  rw [cmpf_apply, broadcastInDim_scalar_apply] at h
  exact Cert.Lib.FiniteReal.real_of_abs_lt_inf (x i) h

/-- THE PRECONDITION READ BACK: on every device, every entry of each of the twelve argument arrays is a real. -/
theorem real_of_pre [Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.LoraSpec.AllReal (s := Cert.LoraSpec.SX) (m ((c.tc : Thread Cert.KernelIdeal.nD Cert.KernelIdeal.τ).loc Cert.KernelIdeal.main_arg0))
      ∧ Cert.LoraSpec.AllReal (s := Cert.LoraSpec.SW) (m ((c.tc : Thread Cert.KernelIdeal.nD Cert.KernelIdeal.τ).loc Cert.KernelIdeal.main_arg1))
      ∧ Cert.LoraSpec.AllReal (s := Cert.LoraSpec.SBias) (m ((c.tc : Thread Cert.KernelIdeal.nD Cert.KernelIdeal.τ).loc Cert.KernelIdeal.main_arg2))
      ∧ Cert.LoraSpec.AllReal (s := Cert.LoraSpec.SA) (m ((c.tc : Thread Cert.KernelIdeal.nD Cert.KernelIdeal.τ).loc Cert.KernelIdeal.main_arg3))
      ∧ Cert.LoraSpec.AllReal (s := Cert.LoraSpec.SB) (m ((c.tc : Thread Cert.KernelIdeal.nD Cert.KernelIdeal.τ).loc Cert.KernelIdeal.main_arg4))
      ∧ Cert.LoraSpec.AllReal (s := Cert.LoraSpec.SA) (m ((c.tc : Thread Cert.KernelIdeal.nD Cert.KernelIdeal.τ).loc Cert.KernelIdeal.main_arg5))
      ∧ Cert.LoraSpec.AllReal (s := Cert.LoraSpec.SB) (m ((c.tc : Thread Cert.KernelIdeal.nD Cert.KernelIdeal.τ).loc Cert.KernelIdeal.main_arg6))
      ∧ Cert.LoraSpec.AllReal (s := Cert.LoraSpec.SA) (m ((c.tc : Thread Cert.KernelIdeal.nD Cert.KernelIdeal.τ).loc Cert.KernelIdeal.main_arg7))
      ∧ Cert.LoraSpec.AllReal (s := Cert.LoraSpec.SB) (m ((c.tc : Thread Cert.KernelIdeal.nD Cert.KernelIdeal.τ).loc Cert.KernelIdeal.main_arg8))
      ∧ Cert.LoraSpec.AllReal (s := Cert.LoraSpec.SOne) (m ((c.tc : Thread Cert.KernelIdeal.nD Cert.KernelIdeal.τ).loc Cert.KernelIdeal.main_arg9))
      ∧ Cert.LoraSpec.AllReal (s := Cert.LoraSpec.SOne) (m ((c.tc : Thread Cert.KernelIdeal.nD Cert.KernelIdeal.τ).loc Cert.KernelIdeal.main_arg10))
      ∧ Cert.LoraSpec.AllReal (s := Cert.LoraSpec.SOne) (m ((c.tc : Thread Cert.KernelIdeal.nD Cert.KernelIdeal.τ).loc Cert.KernelIdeal.main_arg11)) := by
  -- the predicate's one result bit, with the twelve tests in view
  have h := congrFun (hpre c) ix0
  dsimp only [Cert.Pre_finite_inputs.fn, fn_part1, fn_part2, fn_part3] at h
  -- a conjunction of bits is 1 exactly when every bit is
  simp only [andi_apply, IntOp.andi_eq_one] at h
  obtain ⟨⟨⟨⟨⟨⟨⟨⟨⟨⟨⟨h0, h1⟩, h2⟩, h3⟩, h4⟩, h5⟩, h6⟩, h7⟩, h8⟩, h9⟩, h10⟩, h11⟩ := h
  exact ⟨allReal_of_test _ _ _ _ h0, allReal_of_test _ _ _ _ h1, allReal_of_test _ _ _ _ h2,
    allReal_of_test _ _ _ _ h3, allReal_of_test _ _ _ _ h4, allReal_of_test _ _ _ _ h5,
    allReal_of_test _ _ _ _ h6, allReal_of_test _ _ _ _ h7, allReal_of_test _ _ _ _ h8,
    allReal_of_test _ _ _ _ h9, allReal_of_test _ _ _ _ h10, allReal_of_test _ _ _ _ h11⟩

end Cert.KernelIdeal.Finite

end
-- ==== Proof.Bridge.lean ====
/-
  The kernel's result is the specification's function of the arguments.

  The launch is handed five matrices that the host lines built from the twelve arguments: the tokens as rows, the
  weight, the bias as a row, the three 8 × 1280 factors stacked, and the block-diagonal 3840 × 24 factor holding each
  1280 × 8 factor scaled by its scalar. With those, the fused rank-24 form the kernel computes is, row by row, the
  dense projection plus the rank-8 correction of the feature's slice — an identity of real numbers (a common factor
  taken out of a finite sum), which is where the finiteness of the inputs is used.
-/
import proofs.«111903_j32925219291175_2_alg».proof.Defs
import proofs.«111903_j32925219291175_2_alg».proof.Proof.KernelValue
import proofs.«111903_j32925219291175_2_alg».proof.Proof.HostPrefix
import proofs.«111903_j32925219291175_2_alg».proof.Proof.Algebra
import proofs.«111903_j32925219291175_2_alg».proof.Proof.Finite

noncomputable section

namespace Cert.KernelIdeal.Bridge

open Cert.KernelIdeal Cert.KernelIdeal.Gen Cert.KernelIdeal.Hand Cert.KernelIdeal.HandValue
open Idealize.ShloMosaic Idealize.ShloMosaic.TcCoe Idealize.SL.Sem Idealize.ShloMosaic.ValueIdx

variable (m : (ℓ : Loc nD τ sig) → Buf (Elt Ideal) ℓ)

/-- THE KERNEL'S RESULT, token by token, is `G` of the twelve arguments, all of whose entries are real. -/
theorem result_is_G (hpre : Cert.Pre_KernelIdeal m) (c : Dev nD) :
    (fun j => KV m c (ix2 (Cert.LoraSpec.tok (j 0) (j 1) (j 2)) (j 3)) : S8x64x64x3840.Idx → EReal)
      = Cert.LoraSpec.G (m ((c.tc : Thread nD τ).loc main_arg0)) (m ((c.tc : Thread nD τ).loc main_arg1)) (m ((c.tc : Thread nD τ).loc main_arg2))
          ![(m ((c.tc : Thread nD τ).loc main_arg3)), (m ((c.tc : Thread nD τ).loc main_arg5)), (m ((c.tc : Thread nD τ).loc main_arg7))] ![(m ((c.tc : Thread nD τ).loc main_arg4)), (m ((c.tc : Thread nD τ).loc main_arg6)), (m ((c.tc : Thread nD τ).loc main_arg8))] ![(m ((c.tc : Thread nD τ).loc main_arg9)), (m ((c.tc : Thread nD τ).loc main_arg10)), (m ((c.tc : Thread nD τ).loc main_arg11))] := by
  obtain ⟨r0, r1, r2, r3, r4, r5, r6, r7, r8, r9, r10, r11⟩ := Cert.KernelIdeal.Finite.real_of_pre m hpre c
  funext j
  obtain ⟨b, h, v, o, rfl⟩ : ∃ (b : Fin 8) (h v : Fin 64) (o : Fin 3840), j = ix4 b h v o := ⟨j 0, j 1, j 2, j 3, eq_ix4 j⟩
  show Cert.LoraSpec.K2 (V m c main_v0 : S32768x1280.Idx → EReal) (V m c main_v1 : S3840x1280.Idx → EReal)
    (V m c main_v2 : S1x3840.Idx → EReal) (V m c main_v18 : S24x1280.Idx → EReal) (V m c main_v19 : S3840x24.Idx → EReal)
    (ix2 (Cert.LoraSpec.tok b h v) o) = _
  rw [show (V m c main_v0 : S32768x1280.Idx → EReal) = _ from Cert.KernelIdeal.HostPrefix.v0_eq (fun b => m (c, b)),
    show (V m c main_v1 : S3840x1280.Idx → EReal) = _ from Cert.KernelIdeal.HostPrefix.v1_eq (fun b => m (c, b)),
    show (V m c main_v2 : S1x3840.Idx → EReal) = _ from Cert.KernelIdeal.HostPrefix.v2_eq (fun b => m (c, b)),
    show (V m c main_v18 : S24x1280.Idx → EReal) = _ from Cert.KernelIdeal.HostPrefix.v18_eq (fun b => m (c, b)),
    show (V m c main_v19 : S3840x24.Idx → EReal) = _ from Cert.KernelIdeal.HostPrefix.v19_eq (fun b => m (c, b))]
  exact Cert.LoraSpec.K2_eq_G _ _ _ _ _ _ r0
    (fun k => by match k with | ⟨0, _⟩ => exact r3 | ⟨1, _⟩ => exact r5 | ⟨2, _⟩ => exact r7)
    (fun k => by match k with | ⟨0, _⟩ => exact r4 | ⟨1, _⟩ => exact r6 | ⟨2, _⟩ => exact r8)
    (fun k => by match k with | ⟨0, _⟩ => exact r9 | ⟨1, _⟩ => exact r10 | ⟨2, _⟩ => exact r11) b h v o

end Cert.KernelIdeal.Bridge

end
-- ==== Proof.RefValue.lean ====
import proofs.«111903_j32925219291175_2_alg».proof.Proof.Gen.ReferenceIdeal.Read
import proofs.«111903_j32925219291175_2_alg».proof.Proof.Spec

/-
  The reference, read index by index.

  Its result at token (b, h, v) and output feature o is the dense projection with its bias,
  `∑ c, x[c] · W[o, c] + bias[o]`, plus the entry at o of three arrays laid end to end on the feature axis: the
  queries', keys' and values' rank-8 corrections `(∑ r, (∑ c, x[c] · A[r, c]) · B[·, r]) · w`, 1280 features each.
  Feature o of the joined array is feature `o % 1280` of piece `o / 1280`, which is how `G` names the slice.
-/

noncomputable section

open scoped BigOperators

namespace Cert.ReferenceIdeal.RefValue

open Cert.ReferenceIdeal Cert.ReferenceIdeal.Gen Cert.ReferenceIdeal.Read Idealize.ShloMosaic Idealize.ShloMosaic.ValueIdx Cert.LoraSpec

/-- The dense projection plus the broadcast bias, at an index. -/
theorem dense_at (x0 : S8x64x64x1280.Idx → EReal) (x1 : S3840x1280.Idx → EReal) (x2 : S3840.Idx → EReal)
    (b : Fin 8) (h v : Fin 64) (o : Fin 3840) :
    val_main_v3 (F := Ideal) x0 x1 x2 (ix4 b h v o) = base x0 x1 x2 b h v o := by
  have el : ∀ k : Fin 1280, lidx_main_v0 (ix4 b h v o) k = ix4 b h v k := fun k => funext fun a => Fin.ext (by
    match a with
    | ⟨0, _⟩ => rfl
    | ⟨1, _⟩ => rfl
    | ⟨2, _⟩ => rfl
    | ⟨3, _⟩ => rfl)
  have er : ∀ k : Fin 1280, ridx_main_v0 (ix4 b h v o) k = ix2 o k := fun k => funext fun a => Fin.ext (by
    match a with
    | ⟨0, _⟩ => rfl
    | ⟨1, _⟩ => rfl)
  have eb : idx_main_v1 (idx_main_v2 (ix4 b h v o)) = ix1 o := funext fun a => Fin.ext (by
    match a with
    | ⟨0, _⟩ => rfl)
  rw [val_main_v3_apply, val_main_v0_apply, val_main_v2_apply, val_main_v1_apply, Ideal.addf_def, eb]
  simp only [el, er]
  rfl

/-- One rank-8 correction, scaled by its broadcast scalar, at an index. -/
theorem leg_at (x0 : S8x64x64x1280.Idx → EReal) (A : S8x1280.Idx → EReal) (B : S1280x8.Idx → EReal) (w : S1.Idx → EReal)
    (b : Fin 8) (h v : Fin 64) (o : Fin 1280) :
    val_main_v8 (F := Ideal) x0 A B w (ix4 b h v o) = leg x0 A B w b h v o := by
  have el5 : ∀ r : Fin 8, lidx_main_v5 (ix4 b h v o) r = ix4 b h v r := fun r => funext fun a => Fin.ext (by
    match a with
    | ⟨0, _⟩ => rfl
    | ⟨1, _⟩ => rfl
    | ⟨2, _⟩ => rfl
    | ⟨3, _⟩ => rfl)
  have er5 : ∀ r : Fin 8, ridx_main_v5 (ix4 b h v o) r = ix2 o r := fun r => funext fun a => Fin.ext (by
    match a with
    | ⟨0, _⟩ => rfl
    | ⟨1, _⟩ => rfl)
  have el4 : ∀ (r : Fin 8) (c : Fin 1280), lidx_main_v4 (ix4 b h v r) c = ix4 b h v c := fun r c => funext fun a => Fin.ext (by
    match a with
    | ⟨0, _⟩ => rfl
    | ⟨1, _⟩ => rfl
    | ⟨2, _⟩ => rfl
    | ⟨3, _⟩ => rfl)
  have er4 : ∀ (r : Fin 8) (c : Fin 1280), ridx_main_v4 (ix4 b h v r) c = ix2 r c := fun r c => funext fun a => Fin.ext (by
    match a with
    | ⟨0, _⟩ => rfl
    | ⟨1, _⟩ => rfl)
  have ew : idx_main_v6 (idx_main_v7 (ix4 b h v o)) = ix1 0 := funext fun a => Fin.ext (by
    match a with
    | ⟨0, _⟩ => rfl)
  rw [val_main_v8_apply, val_main_v5_apply, val_main_v7_apply, val_main_v6_apply, Ideal.mulf_def, ew]
  simp only [el5, er5, val_main_v4_apply, el4, er4]
  rfl

/-- Three pieces of 1280 features laid end to end on the last axis, read at feature `o`: piece `o / 1280` at
    feature `o % 1280`. -/
theorem concat_at {α : Type} (y0 y1 y2 : S8x64x64x1280.Idx → α) (b : Fin 8) (h v : Fin 64) (o : Fin 3840) :
    concatenate S8x64x64x3840 3 [⟨S8x64x64x1280, y0⟩, ⟨S8x64x64x1280, y1⟩, ⟨S8x64x64x1280, y2⟩]
        concatenates_S8x64x64x1280_S8x64x64x1280_S8x64x64x1280_S8x64x64x3840_d3 (ix4 b h v o)
      = (![y0, y1, y2] (slice o)) (ix4 b h v (within o)) := by
  have hdm : 1280 * (slice o).val + (within o).val = o.val := Nat.div_add_mod _ _
  generalize slice o = k at hdm ⊢
  generalize within o = r at hdm ⊢
  have hi : ∀ a : Fin S8x64x64x1280.rank, a.cast rfl ≠ (3 : Fin S8x64x64x3840.rank) →
      ((ix4 b h v r : S8x64x64x1280.Idx) a).val = ((ix4 b h v o : S8x64x64x3840.Idx) (a.cast rfl)).val := fun a ha => by
    match a, ha with
    | ⟨0, _⟩, _ => rfl
    | ⟨1, _⟩, _ => rfl
    | ⟨2, _⟩, _ => rfl
    | ⟨3, _⟩, ha => exact absurd rfl ha
  match k, hdm with
  | ⟨0, _⟩, hdm =>
    exact concatenate_apply_piece 3 _ _ (ix4 b h v o) 0 (by simp) S8x64x64x1280 y0 rfl rfl 0 rfl (ix4 b h v r) hi
      (by show 0 + r.val = o.val; omega)
  | ⟨1, _⟩, hdm =>
    exact concatenate_apply_piece 3 _ _ (ix4 b h v o) 1 (by simp) S8x64x64x1280 y1 rfl rfl 1280 rfl (ix4 b h v r) hi
      (by show 1280 + r.val = o.val; omega)
  | ⟨2, _⟩, hdm =>
    exact concatenate_apply_piece 3 _ _ (ix4 b h v o) 2 (by simp) S8x64x64x1280 y2 rfl rfl 2560 rfl (ix4 b h v r) hi
      (by show 2560 + r.val = o.val; omega)

/-- The keys' and the values' corrections are the queries' computation at their own arguments. -/
theorem v13_eq (x0 : S8x64x64x1280.Idx → EReal) (A : S8x1280.Idx → EReal) (B : S1280x8.Idx → EReal) (w : S1.Idx → EReal) :
    val_main_v13 (F := Ideal) x0 A B w = val_main_v8 (F := Ideal) x0 A B w := rfl
theorem v18_eq (x0 : S8x64x64x1280.Idx → EReal) (A : S8x1280.Idx → EReal) (B : S1280x8.Idx → EReal) (w : S1.Idx → EReal) :
    val_main_v18 (F := Ideal) x0 A B w = val_main_v8 (F := Ideal) x0 A B w := rfl

/-- The reference program's result is `G` of its arguments: the dense projection with its bias, plus the three scaled
    rank-8 corrections laid end to end on the feature axis. -/
theorem ref_eq (x0 : S8x64x64x1280.Idx → EReal) (x1 : S3840x1280.Idx → EReal) (x2 : S3840.Idx → EReal)
    (x3 x5 x7 : S8x1280.Idx → EReal) (x4 x6 x8 : S1280x8.Idx → EReal) (x9 x10 x11 : S1.Idx → EReal) :
    val_main_v20 (F := Ideal) x0 x1 x2 x3 x4 x5 x6 x7 x8 x9 x10 x11
      = G x0 x1 x2 ![x3, x5, x7] ![x4, x6, x8] ![x9, x10, x11] := by
  funext i
  obtain ⟨b, h, v, o, rfl⟩ : ∃ (b : Fin 8) (h v : Fin 64) (o : Fin 3840), i = ix4 b h v o :=
    ⟨i 0, i 1, i 2, i 3, eq_ix4 i⟩
  rw [val_main_v20_apply, Ideal.addf_def, dense_at]
  unfold val_main_v19
  rw [concat_at, v13_eq, v18_eq]
  show _ = base x0 x1 x2 b h v o
    + leg x0 (![x3, x5, x7] (slice o)) (![x4, x6, x8] (slice o)) (![x9, x10, x11] (slice o)) b h v (within o)
  congr 1
  generalize slice o = k
  generalize within o = r
  match k with
  | ⟨0, _⟩ => exact leg_at x0 x3 x4 x9 b h v r
  | ⟨1, _⟩ => exact leg_at x0 x5 x6 x10 b h v r
  | ⟨2, _⟩ => exact leg_at x0 x7 x8 x11 b h v r

end Cert.ReferenceIdeal.RefValue

end
-- ==== Proof.lean ====
/-
  A fused low-rank-adapted projection against its textbook form, on the extended reals.

  Both programs take a batch of 8 × 64 × 64 tokens of 1280 features, a 3840 × 1280 weight with its bias, and for
  each of three slices (queries, keys, values) an 8 × 1280 factor, a 1280 × 8 factor and a scalar. The reference
  computes, per token and output feature, the dense projection plus the slice's rank-8 correction times its scalar,
  the three corrections laid end to end. The kernel lays the tokens out as the rows of a matrix, stacks the three
  first factors into a 24 × 1280 matrix, puts the three scaled second factors on the diagonal of a 3840 × 24 matrix
  that is zero elsewhere, and computes row blocks of 256 tokens: dense product, plus bias, plus the two fused
  rank-24 products. At the exact values every change of float format is the identity and every matrix product a
  plain finite sum, so the two results differ only in where the scalar stands and in the vanishing off-diagonal
  blocks: equal whenever the inputs are real numbers, which the precondition says.

  The three frames: each program runs to its end without a fault and leaves its arguments as they were — the kernel
  program's by the frame of its launch (word-level and exact instances alike), the reference's by its run.
  The idealization rewrote nothing, so there is nothing to preserve.
-/
import proofs.«111903_j32925219291175_2_alg».proof.Defs
import proofs.«111903_j32925219291175_2_alg».proof.Proof.Gen.Kernel
import proofs.«111903_j32925219291175_2_alg».proof.Proof.Gen.KernelIdeal
import proofs.«111903_j32925219291175_2_alg».proof.Proof.Gen.ReferenceIdeal
import proofs.«111903_j32925219291175_2_alg».proof.Proof.Gen.Pre_finite_inputs
import proofs.«111903_j32925219291175_2_alg».proof.Proof.KernelFrame
import proofs.«111903_j32925219291175_2_alg».proof.Proof.Bridge
import proofs.«111903_j32925219291175_2_alg».proof.Proof.RefValue
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Hand.frame m ρ

/-- So does the kernel program at the exact values. -/
theorem frame_kernelIdeal : Cert.frame_KernelIdeal := fun m ρ _ => Cert.KernelIdeal.Hand.frame m ρ

/-- The reference runs and keeps its arguments: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the specification's function of them. -/
theorem algebraic : Cert.algebraic_KernelIdeal_ReferenceIdeal := by
  intro m ρ m' ρ' hpre hagree
  refine ⟨_, (θ_run Cert.KernelIdeal.defs _ _).mono (fun _ h c => ⟨(h c).1.trans (Cert.KernelIdeal.Bridge.result_is_G m hpre c), (h c).2⟩)
    (Cert.KernelIdeal.HandValue.run_read m ρ), ?_⟩
  refine (θ_run Cert.ReferenceIdeal.defs _ _).mono (fun _ h c => ⟨?_, (h c).2⟩) (Cert.ReferenceIdeal.Value.run (F := Ideal) m' ρ')
  obtain ⟨a0, a1, a2, a3, a4, a5, a6, a7, a8, a9, a10, a11⟩ := hagree c
  rw [(h c).1, Cert.ReferenceIdeal.Read.val_main_v20_eq, Cert.ReferenceIdeal.RefValue.ref_eq, a0, a1, a2, a3, a4, a5, a6, a7, a8, a9, a10, a11]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
